-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x200000 : Shape := ⟨2, ![2, 200000]⟩
abbrev S200000x6 : Shape := ⟨2, ![200000, 6]⟩
abbrev S2000000x42 : Shape := ⟨2, ![2000000, 42]⟩
abbrev S2000000 : Shape := ⟨1, ![2000000]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S200000x6 : S_.BroadcastsInDim S200000x6 (![] : Fin 0 → Fin S200000x6.rank)
  reducesTo_S200000x6_S_d0_1 : S200000x6.ReducesTo [0, 1] S_
  bcast_S_S2000000x42 : S_.BroadcastsInDim S2000000x42 (![] : Fin 0 → Fin S2000000x42.rank)
  reducesTo_S2000000x42_S_d0_1 : S2000000x42.ReducesTo [0, 1] S_
  bcast_S_S6x8 : S_.BroadcastsInDim S6x8 (![] : Fin 0 → Fin S6x8.rank)
  reducesTo_S6x8_S_d0_1 : S6x8.ReducesTo [0, 1] S_
  bcast_S_S8x128 : S_.BroadcastsInDim S8x128 (![] : Fin 0 → Fin S8x128.rank)
  reducesTo_S8x128_S_d0_1 : S8x128.ReducesTo [0, 1] S_
  bcast_S_S42x8 : S_.BroadcastsInDim S42x8 (![] : Fin 0 → Fin S42x8.rank)
  reducesTo_S42x8_S_d0_1 : S42x8.ReducesTo [0, 1] S_
  bcast_S_S8x64 : S_.BroadcastsInDim S8x64 (![] : Fin 0 → Fin S8x64.rank)
  reducesTo_S8x64_S_d0_1 : S8x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x128 : S_.BroadcastsInDim S64x128 (![] : Fin 0 → Fin S64x128.rank)
  reducesTo_S64x128_S_d0_1 : S64x128.ReducesTo [0, 1] S_

variable [Facts]

def fn_part5 {F : FTy → Type} [FloatOps F] (main_arg21 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg21
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg17 : FVec F S128 .f32) (main_arg18 : FVec F S128x128 .f32) (main_arg19 : FVec F S128 .f32) (main_arg20 : FVec F S128 .f32) (main_arg21 : FVec F S128 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg18
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg19
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg20
  let main_cst_32 : FVec F S_ .f32 := constant S_ .f32 0x7F800000#32
  fn_part5 (F := F) main_arg21 main_v83 main_v84 main_cst_32

def fn_part3 {F : FTy → Type} [FloatOps F] (main_arg14 : FVec F S128x64 .f32) (main_arg15 : FVec F S64x128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg14
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64x128 .f32 := Host.absf main_arg15
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S128x128 .f32 := Host.absf main_arg16
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg17 main_arg18 main_arg19 main_arg20 main_arg21 main_v63 main_v67

def fn_part2 {F : FTy → Type} [FloatOps F] (main_arg10 : FVec F S128x128 .f32) (main_arg11 : FVec F S128 .f32) (main_arg12 : FVec F S128x128 .f32) (main_arg13 : FVec F S128 .f32) (main_arg14 : FVec F S128x64 .f32) (main_arg15 : FVec F S64x128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_arg17 main_arg18 main_arg19 main_arg20 main_arg21 main_v48 main_v49 main_v50

def fn_part1 {F : FTy → Type} [FloatOps F] (main_arg7 : FVec F S8x128 .f32) (main_arg8 : FVec F S42x8 .f32) (main_arg9 : FVec F S8x64 .f32) (main_arg10 : FVec F S128x128 .f32) (main_arg11 : FVec F S128 .f32) (main_arg12 : FVec F S128x128 .f32) (main_arg13 : FVec F S128 .f32) (main_arg14 : FVec F S128x64 .f32) (main_arg15 : FVec F S64x128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_v13 : IVec S_ 1) (main_v16 : IVec S6x8 1) : IVec S_ 1 :=
  let main_c_5 : IVec S_ 1 := constantI S_ 1 1#1
  let main_v17 : IVec S_ 1 := (fun x v => Host.reduce IntOp.andi x v reducesTo_S6x8_S_d0_1 h_S_) main_v16 main_c_5
  let main_v18 : IVec S_ 1 := andi main_v13 main_v17
  let main_v19 : FVec F S8x128 .f32 := Host.absf main_arg7
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S42x8 .f32 := Host.absf main_arg8
  let main_cst_8 : FVec F S_ .f32 := constant S_ .f32 0x7F800000#32
  let main_v25 : FVec F S42x8 .f32 := broadcastInDim S42x8 ![] bcast_S_S42x8 main_cst_8
  let main_v26 : IVec S42x8 1 := cmpf .olt main_v24 main_v25
  let main_c_9 : IVec S_ 1 := constantI S_ 1 1#1
  let main_v27 : IVec S_ 1 := (fun x v => Host.reduce IntOp.andi x v reducesTo_S42x8_S_d0_1 h_S_) main_v26 main_c_9
  let main_v28 : IVec S_ 1 := andi main_v23 main_v27
  let main_v29 : FVec F S8x64 .f32 := Host.absf main_arg9
  let main_cst_10 : FVec F S_ .f32 := constant S_ .f32 0x7F800000#32
  let main_v30 : FVec F S8x64 .f32 := broadcastInDim S8x64 ![] bcast_S_S8x64 main_cst_10
  let main_v31 : IVec S8x64 1 := cmpf .olt main_v29 main_v30
  let main_c_11 : IVec S_ 1 := constantI S_ 1 1#1
  let main_v32 : IVec S_ 1 := (fun x v => Host.reduce IntOp.andi x v reducesTo_S8x64_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_v33

def fn {F : FTy → Type} [FloatOps F] (main_arg0 : FVec F S200000x128 .f32) (main_arg1 : IVec S2x200000 32) (main_arg2 : FVec F S200000x6 .f32) (main_arg3 : FVec F S2000000x42 .f32) (main_arg4 : IVec S2000000 32) (main_arg5 : IVec S2000000 32) (main_arg6 : FVec F S6x8 .f32) (main_arg7 : FVec F S8x128 .f32) (main_arg8 : FVec F S42x8 .f32) (main_arg9 : FVec F S8x64 .f32) (main_arg10 : FVec F S128x128 .f32) (main_arg11 : FVec F S128 .f32) (main_arg12 : FVec F S128x128 .f32) (main_arg13 : FVec F S128 .f32) (main_arg14 : FVec F S128x64 .f32) (main_arg15 : FVec F S64x128 .f32) (main_arg16 : FVec F S128x128 .f32) (main_arg17 : FVec F S128 .f32) (main_arg18 : FVec F S128x128 .f32) (main_arg19 : FVec F S128 .f32) (main_arg20 : FVec F S128 .f32) (main_arg21 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S200000x6 .f32 := Host.absf main_arg2
  let main_cst_0 : FVec F S_ .f32 := constant S_ .f32 0x7F800000#32
  let main_v5 : FVec F S200000x6 .f32 := broadcastInDim S200000x6 ![] bcast_S_S200000x6 main_cst_0
  let main_v6 : IVec S200000x6 1 := cmpf .olt main_v4 main_v5
  let main_c_1 : IVec S_ 1 := constantI S_ 1 1#1
  let main_v7 : IVec S_ 1 := (fun x v => Host.reduce IntOp.andi x v reducesTo_S200000x6_S_d0_1 h_S_) main_v6 main_c_1
  let main_v8 : IVec S_ 1 := andi main_v3 main_v7
  let main_v9 : FVec F S2000000x42 .f32 := Host.absf main_arg3
  let main_cst_2 : FVec F S_ .f32 := constant S_ .f32 0x7F800000#32
  let main_v10 : FVec F S2000000x42 .f32 := broadcastInDim S2000000x42 ![] bcast_S_S2000000x42 main_cst_2
  let main_v11 : IVec S2000000x42 1 := cmpf .olt main_v9 main_v10
  let main_c_3 : IVec S_ 1 := constantI S_ 1 1#1
  let main_v12 : IVec S_ 1 := (fun x v => Host.reduce IntOp.andi x v reducesTo_S2000000x42_S_d0_1 h_S_) main_v11 main_c_3
  let main_v13 : IVec S_ 1 := andi main_v8 main_v12
  let main_v14 : FVec F S6x8 .f32 := Host.absf main_arg6
  let main_cst_4 : FVec F S_ .f32 := constant S_ .f32 0x7F800000#32
  let main_v15 : FVec F S6x8 .f32 := broadcastInDim S6x8 ![] bcast_S_S6x8 main_cst_4
  let main_v16 : IVec S6x8 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_v13 main_v16
-- ==== Kernel.lean ====
abbrev S200000x128 : Shape := ⟨2, ![200000, 128]⟩
abbrev S2x200000 : Shape := ⟨2, ![2, 200000]⟩
abbrev S200000x6 : Shape := ⟨2, ![200000, 6]⟩
abbrev S2000000x42 : Shape := ⟨2, ![2000000, 42]⟩
abbrev S2000000 : Shape := ⟨1, ![2000000]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x128 : Shape := ⟨2, ![1, 128]⟩
abbrev S200000x64 : Shape := ⟨2, ![200000, 64]⟩
abbrev S2000x128 : Shape := ⟨2, ![2000, 128]⟩
abbrev S2000x6 : Shape := ⟨2, ![2000, 6]⟩
abbrev S2000x64 : Shape := ⟨2, ![2000, 64]⟩
abbrev S2000x8 : Shape := ⟨2, ![2000, 8]⟩
abbrev S_ : Shape := ⟨0, ![]⟩
abbrev S2000000x1 : Shape := ⟨2, ![2000000, 1]⟩
abbrev S2000000x64 : Shape := ⟨2, ![2000000, 64]⟩
abbrev S8000x42 : Shape := ⟨2, ![8000, 42]⟩
abbrev S8000x64 : Shape := ⟨2, ![8000, 64]⟩
abbrev S8000x8 : Shape := ⟨2, ![8000, 8]⟩

abbrev nBuf : Space → Nat
  | .hbm => 73
  | .vmem => 36
  | .smem => 0
  | _ => 0

abbrev bufTy : (tb : Table) → Fin (tcTables nBuf tb) → BufTy
  | .hbm, ⟨0, _⟩ => ⟨S200000x128, .f32⟩
  | .hbm, ⟨1, _⟩ => ⟨S2x200000, .i32⟩
  | .hbm, ⟨2, _⟩ => ⟨S200000x6, .f32⟩
  | .hbm, ⟨3, _⟩ => ⟨S2000000x42, .f32⟩
  | .hbm, ⟨4, _⟩ => ⟨S2000000, .i32⟩
  | .hbm, ⟨5, _⟩ => ⟨S2000000, .i32⟩
  | .hbm, ⟨6, _⟩ => ⟨S6x8, .f32⟩
  | .hbm, ⟨7, _⟩ => ⟨S8x128, .f32⟩
  | .hbm, ⟨8, _⟩ => ⟨S42x8, .f32⟩
  | .hbm, ⟨9, _⟩ => ⟨S8x64, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x64, .f32⟩
  | .hbm, ⟨15, _⟩ => ⟨S64x128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S1x128, .f32⟩
  | .hbm, ⟨23, _⟩ => ⟨S1x128, .f32⟩
  | .hbm, ⟨24, _⟩ => ⟨S200000x128, .f32⟩
  | .hbm, ⟨25, _⟩ => ⟨S200000x64, .f32⟩
  | .hbm, ⟨26, _⟩ => ⟨S_, .i32⟩
  | .hbm, ⟨27, _⟩ => ⟨S2000000, .i32⟩
  | .hbm, ⟨28, _⟩ => ⟨S2000000, .i1⟩
  | .hbm, ⟨29, _⟩ => ⟨S_, .i32⟩
  | .hbm, ⟨30, _⟩ => ⟨S2000000, .i32⟩
  | .hbm, ⟨31, _⟩ => ⟨S2000000, .i32⟩
  | .hbm, ⟨32, _⟩ => ⟨S2000000, .i32⟩
  | .hbm, ⟨33, _⟩ => ⟨S2000000x1, .i32⟩
  | .hbm, ⟨34, _⟩ => ⟨S2000000x64, .f32⟩
  | .hbm, ⟨35, _⟩ => ⟨S2000000x64, .f32⟩
  | .hbm, ⟨36, _⟩ => ⟨S_, .f32⟩
  | .hbm, ⟨37, _⟩ => ⟨S200000x64, .f32⟩
  | .hbm, ⟨38, _⟩ => ⟨S2000000x1, .i32⟩
  | .hbm, ⟨39, _⟩ => ⟨S200000x64, .f32⟩
  | .hbm, ⟨40, _⟩ => ⟨S1x128, .f32⟩
  | .hbm, ⟨41, _⟩ => ⟨S1x128, .f32⟩
  | .hbm, ⟨42, _⟩ => ⟨S200000x128, .f32⟩
  | .hbm, ⟨43, _⟩ => ⟨S_, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S200000x128, .f32⟩
  | .hbm, ⟨50, _⟩ => ⟨S200000x128, .f32⟩
  | .hbm, ⟨51, _⟩ => ⟨S200000x128, .f32⟩
  | .hbm, ⟨52, _⟩ => ⟨S_, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S1x128, .f32⟩
  | .hbm, ⟨58, _⟩ => ⟨S200000x128, .f32⟩
  | .hbm, ⟨59, _⟩ => ⟨S200000x128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S200000x128, .f32⟩
  | .hbm, ⟨66, _⟩ => ⟨S200000x128, .f32⟩
  | .hbm, ⟨67, _⟩ => ⟨S1x128, .f32⟩
  | .hbm, ⟨68, _⟩ => ⟨S200000x128, .f32⟩
  | .hbm, ⟨69, _⟩ => ⟨S200000x128, .f32⟩
  | .hbm, ⟨70, _⟩ => ⟨S1x128, .f32⟩
  | .hbm, ⟨71, _⟩ => ⟨S200000x128, .f32⟩
  | .hbm, ⟨72, _⟩ => ⟨S200000x128, .f32⟩
  | .local _ .vmem, ⟨0, _⟩ => ⟨S2000x128, .f32⟩
  | .local _ .vmem, ⟨1, _⟩ => ⟨S2000x128, .f32⟩
  | .local _ .vmem, ⟨2, _⟩ => ⟨S2000x6, .f32⟩
  | .local _ .vmem, ⟨3, _⟩ => ⟨S2000x6, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S6x8, .f32⟩
  | .local _ .vmem, ⟨9, _⟩ => ⟨S8x128, .f32⟩
  | .local _ .vmem, ⟨10, _⟩ => ⟨S128x64, .f32⟩
  | .local _ .vmem, ⟨11, _⟩ => ⟨S2000x128, .f32⟩
  | .local _ .vmem, ⟨12, _⟩ => ⟨S2000x128, .f32⟩
  | .local _ .vmem, ⟨13, _⟩ => ⟨S2000x64, .f32⟩
  | .local _ .vmem, ⟨14, _⟩ => ⟨S2000x64, .f32⟩
  | .local _ .vmem, ⟨15, _⟩ => ⟨S8000x42, .f32⟩
  | .local _ .vmem, ⟨16, _⟩ => ⟨S8000x42, .f32⟩
  | .local _ .vmem, ⟨17, _⟩ => ⟨S8000x64, .f32⟩
  | .local _ .vmem, ⟨18, _⟩ => ⟨S8000x64, .f32⟩
  | .local _ .vmem, ⟨19, _⟩ => ⟨S42x8, .f32⟩
  | .local _ .vmem, ⟨20, _⟩ => ⟨S8x64, .f32⟩
  | .local _ .vmem, ⟨21, _⟩ => ⟨S8000x64, .f32⟩
  | .local _ .vmem, ⟨22, _⟩ => ⟨S8000x64, .f32⟩
  | .local _ .vmem, ⟨23, _⟩ => ⟨S2000x64, .f32⟩
  | .local _ .vmem, ⟨24, _⟩ => ⟨S2000x64, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S64x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2_0 : Ref sig .tc := ⟨.hbm, 24, rfl⟩
abbrev main_v2_1 : Ref sig .tc := ⟨.hbm, 25, rfl⟩
abbrev main_c : Ref sig .tc := ⟨.hbm, 26, rfl⟩
abbrev main_v3 : Ref sig .tc := ⟨.hbm, 27, rfl⟩
abbrev main_v4 : Ref sig .tc := ⟨.hbm, 28, rfl⟩
abbrev main_c_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_1 : Ref sig .tc := ⟨.hbm, 43, rfl⟩
abbrev main_v17 : Ref sig .tc := ⟨.hbm, 44, rfl⟩
abbrev main_cst_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_3 : Ref sig .tc := ⟨.hbm, 52, rfl⟩
abbrev main_v24 : Ref sig .tc := ⟨.hbm, 53, rfl⟩
abbrev main_cst_4 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_5 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem4_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x42 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S42x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x6_S2000x6_0_0 : ∀ a, (![0, 0] : Fin 2 → Nat) a + S2000x6.size a ≤ S2000x6.size a
  h_S2000x6 : 0 < S2000x6.numel
  inb_S6x8_S6x8_0_0 : ∀ a, (![0, 0] : Fin 2 → Nat) a + S6x8.size a ≤ S6x8.size a
  h_S6x8 : 0 < S6x8.numel
  inb_S8x128_S8x128_0_0 : ∀ a, (![0, 0] : Fin 2 → Nat) a + S8x128.size a ≤ S8x128.size a
  h_S8x128 : 0 < S8x128.numel
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S_S2000000 : S_.BroadcastsInDim S2000000 (![] : Fin 0 → Fin S2000000.rank)
  bcast_S2000000_S2000000x1_0 : S2000000.BroadcastsInDim S2000000x1 (![0] : Fin 1 → Fin S2000000x1.rank)
  inb_S8000x42_S8000x42_0_0 : ∀ a, (![0, 0] : Fin 2 → Nat) a + S8000x42.size a ≤ S8000x42.size a
  h_S8000x42 : 0 < S8000x42.numel
  inb_S42x8_S42x8_0_0 : ∀ a, (![0, 0] : Fin 2 → Nat) a + S42x8.size a ≤ S42x8.size a
  h_S42x8 : 0 < S42x8.numel
  inb_S8x64_S8x64_0_0 : ∀ a, (![0, 0] : Fin 2 → Nat) a + S8x64.size a ≤ S8x64.size a
  h_S8x64 : 0 < S8x64.numel
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S200000x64 : S_.BroadcastsInDim S200000x64 (![] : Fin 0 → Fin S200000x64.rank)
  shapeCasts_S2000x64_S2000x64 : S2000x64.ShapeCasts S2000x64
  inb_S64x128_S64x128_0_0 : ∀ a, (![0, 0] : Fin 2 → Nat) a + S64x128.size a ≤ S64x128.size a
  h_S64x128 : 0 < S64x128.numel
  shapeCasts_S2000x128_S2000x128 : S2000x128.ShapeCasts S2000x128
  reducesTo_S200000x128_S128_d0 : S200000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  dot_S2000x128_S128x128_S2000x128_1_0_0_1_n_n_wf : DotDims.WF S2000x128 S128x128 S2000x128 [1] [0] [0] [1] [] []
  dot_S2000x6_S6x8_S2000x8_1_0_0_1_n_n_wf : DotDims.WF S2000x6 S6x8 S2000x8 [1] [0] [0] [1] [] []
  dot_S2000x8_S8x128_S2000x128_1_0_0_1_n_n_wf : DotDims.WF S2000x8 S8x128 S2000x128 [1] [0] [0] [1] [] []
  dot_S2000x128_S128x64_S2000x64_1_0_0_1_n_n_wf : DotDims.WF S2000x128 S128x64 S2000x64 [1] [0] [0] [1] [] []
  gather_S200000x64_S2000000x1_S2000000x64_1_0_n_n_0_1_164_wf : GatherDims.WF S200000x64 S2000000x1 S2000000x64 [1] [0] [] [0] [] 1 ![1, 64]
  dot_S8000x42_S42x8_S8000x8_1_0_0_1_n_n_wf : DotDims.WF S8000x42 S42x8 S8000x8 [1] [0] [0] [1] [] []
  dot_S8000x8_S8x64_S8000x64_1_0_0_1_n_n_wf : DotDims.WF S8000x8 S8x64 S8000x64 [1] [0] [0] [1] [] []
  scatter_S200000x64_S2000000x1_S2000000x64_1_0_0_1_wf : ScatterDims.WF S200000x64 S2000000x1 S2000000x64 [1] [0] [0] 1
  dot_S2000x64_S64x128_S2000x128_1_0_0_1_n_n_wf : DotDims.WF S2000x64 S64x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S200000x128.size a
  hwx0_0 : ∀ i : grid0.Coords, EltTy.bits .f32 = 32 ∨ (Rect.block (s := S200000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x6.size a ≤ S200000x6.size a
  hwx0_1 : ∀ i : grid0.Coords, EltTy.bits .f32 = 32 ∨ (Rect.block (s := S200000x6) S2000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6x8.size a ≤ S6x8.size a
  hwx0_6 : ∀ i : grid0.Coords, EltTy.bits .f32 = 32 ∨ (Rect.block (s := S6x8) S6x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S8x128.size a
  hwx0_7 : ∀ i : grid0.Coords, EltTy.bits .f32 = 32 ∨ (Rect.block (s := S8x128) S8x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S200000x128.size a
  hwx0_9 : ∀ i : grid0.Coords, EltTy.bits .f32 = 32 ∨ (Rect.block (s := S200000x128) S2000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x64.size a ≤ S200000x64.size a
  hwx0_10 : ∀ i : grid0.Coords, EltTy.bits .f32 = 32 ∨ (Rect.block (s := S200000x64) S2000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x42.size a ≤ S2000000x42.size a
  hwx1_0 : ∀ i : grid1.Coords, EltTy.bits .f32 = 32 ∨ (Rect.block (s := S2000000x42) S8000x42.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S2000000x64.size a
  hwx1_1 : ∀ i : grid1.Coords, EltTy.bits .f32 = 32 ∨ (Rect.block (s := S2000000x64) S8000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S42x8.size a ≤ S42x8.size a
  hwx1_2 : ∀ i : grid1.Coords, EltTy.bits .f32 = 32 ∨ (Rect.block (s := S42x8) S42x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x64.size a ≤ S8x64.size a
  hwx1_3 : ∀ i : grid1.Coords, EltTy.bits .f32 = 32 ∨ (Rect.block (s := S8x64) S8x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x64.size a ≤ S2000000x64.size a
  hwx1_4 : ∀ i : grid1.Coords, EltTy.bits .f32 = 32 ∨ (Rect.block (s := S2000000x64) S8000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S200000x64.size a
  hwx2_0 : ∀ i : grid2.Coords, EltTy.bits .f32 = 32 ∨ (Rect.block (s := S200000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S200000x128.size a
  hwx2_1 : ∀ i : grid2.Coords, EltTy.bits .f32 = 32 ∨ (Rect.block (s := S200000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S200000x128.size a
  hwx2_2 : ∀ i : grid2.Coords, EltTy.bits .f32 = 32 ∨ (Rect.block (s := S200000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S200000x128.size a
  hwx2_8 : ∀ i : grid2.Coords, EltTy.bits .f32 = 32 ∨ (Rect.block (s := S200000x128) S2000x128.size (cc2_transform_8 i) (hinb2_8 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x6_S6x8_S2000x8_1_0_0_1_n_n : DotDims S2000x6 S6x8 S2000x8 where
  lhsContracting := [1]
  rhsContracting := [0]
  lhsNonContracting := [0]
  rhsNonContracting := [1]
  lhsBatch := []
  rhsBatch := []
  wf := dot_S2000x6_S6x8_S2000x8_1_0_0_1_n_n_wf
def dot_S2000x8_S8x128_S2000x128_1_0_0_1_n_n : DotDims S2000x8 S8x128 S2000x128 where
  lhsContracting := [1]
  rhsContracting := [0]
  lhsNonContracting := [0]
  rhsNonContracting := [1]
  lhsBatch := []
  rhsBatch := []
  wf := dot_S2000x8_S8x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def dot_S8000x42_S42x8_S8000x8_1_0_0_1_n_n : DotDims S8000x42 S42x8 S8000x8 where
  lhsContracting := [1]
  rhsContracting := [0]
  lhsNonContracting := [0]
  rhsNonContracting := [1]
  lhsBatch := []
  rhsBatch := []
  wf := dot_S8000x42_S42x8_S8000x8_1_0_0_1_n_n_wf
def dot_S8000x8_S8x64_S8000x64_1_0_0_1_n_n : DotDims S8000x8 S8x64 S8000x64 where
  lhsContracting := [1]
  rhsContracting := [0]
  lhsNonContracting := [0]
  rhsNonContracting := [1]
  lhsBatch := []
  rhsBatch := []
  wf := dot_S8000x8_S8x64_S8000x64_1_0_0_1_n_n_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg12) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S6x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg14) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2_0) S2000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2_1) S2000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg3) S8000x42.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S42x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S8x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S8000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v13) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v14) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg18) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v15) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v16) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S200000x128 : Shape := ⟨2, ![200000, 128]⟩
abbrev S2x200000 : Shape := ⟨2, ![2, 200000]⟩
abbrev S200000x6 : Shape := ⟨2, ![200000, 6]⟩
abbrev S2000000x42 : Shape := ⟨2, ![2000000, 42]⟩
abbrev S2000000 : Shape := ⟨1, ![2000000]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x128 : Shape := ⟨2, ![1, 128]⟩
abbrev S_ : Shape := ⟨0, ![]⟩
abbrev S200000x8 : Shape := ⟨2, ![200000, 8]⟩
abbrev S200000x64 : Shape := ⟨2, ![200000, 64]⟩
abbrev S2000000x8 : Shape := ⟨2, ![2000000, 8]⟩
abbrev S2000000x64 : Shape := ⟨2, ![2000000, 64]⟩
abbrev S2000000x1 : Shape := ⟨2, ![2000000, 1]⟩

abbrev nBuf : Space → Nat
  | .hbm => 145
  | .vmem => 0
  | .smem => 0
  | _ => 0

abbrev hbmTy0_0 (i : Nat) : BufTy := match i % 128 with
  | 0 => ⟨S200000x128, .f32⟩
  | 1 => ⟨S2x200000, .i32⟩
  | 2 => ⟨S200000x6, .f32⟩
  | 3 => ⟨S2000000x42, .f32⟩
  | 4 => ⟨S2000000, .i32⟩
  | 5 => ⟨S2000000, .i32⟩
  | 6 => ⟨S6x8, .f32⟩
  | 7 => ⟨S8x128, .f32⟩
  | 8 => ⟨S42x8, .f32⟩
  | 9 => ⟨S8x64, .f32⟩
  | 10 => ⟨S128x128, .f32⟩
  | 11 => ⟨S128, .f32⟩
  | 12 => ⟨S128x128, .f32⟩
  | 13 => ⟨S128, .f32⟩
  | 14 => ⟨S128x64, .f32⟩
  | 15 => ⟨S64x128, .f32⟩
  | 16 => ⟨S128x128, .f32⟩
  | 17 => ⟨S128, .f32⟩
  | 18 => ⟨S128x128, .f32⟩
  | 19 => ⟨S128, .f32⟩
  | 20 => ⟨S128, .f32⟩
  | 21 => ⟨S128, .f32⟩
  | 22 => ⟨S200000x128, .f32⟩
  | 23 => ⟨S1x128, .f32⟩
  | 24 => ⟨S200000x128, .f32⟩
  | 25 => ⟨S200000x128, .f32⟩
  | 26 => ⟨S200000x128, .f32⟩
  | 27 => ⟨S200000x128, .f32⟩
  | 28 => ⟨S_, .f32⟩
  | 29 => ⟨S200000x128, .f32⟩
  | 30 => ⟨S200000x128, .f32⟩
  | 31 => ⟨S_, .f32⟩
  | 32 => ⟨S200000x128, .f32⟩
  | 33 => ⟨S200000x128, .f32⟩
  | 34 => ⟨S200000x128, .f32⟩
  | 35 => ⟨S200000x128, .f32⟩
  | 36 => ⟨S1x128, .f32⟩
  | 37 => ⟨S200000x128, .f32⟩
  | 38 => ⟨S200000x128, .f32⟩
  | 39 => ⟨S200000x128, .f32⟩
  | 40 => ⟨S200000x128, .f32⟩
  | 41 => ⟨S_, .f32⟩
  | 42 => ⟨S200000x128, .f32⟩
  | 43 => ⟨S200000x128, .f32⟩
  | 44 => ⟨S_, .f32⟩
  | 45 => ⟨S200000x128, .f32⟩
  | 46 => ⟨S200000x128, .f32⟩
  | 47 => ⟨S200000x128, .f32⟩
  | 48 => ⟨S200000x8, .f32⟩
  | 49 => ⟨S200000x128, .f32⟩
  | 50 => ⟨S200000x128, .f32⟩
  | 51 => ⟨S200000x64, .f32⟩
  | 52 => ⟨S200000x64, .f32⟩
  | 53 => ⟨S200000x64, .f32⟩
  | 54 => ⟨S_, .f32⟩
  | 55 => ⟨S200000x64, .f32⟩
  | 56 => ⟨S200000x64, .f32⟩
  | 57 => ⟨S_, .f32⟩
  | 58 => ⟨S200000x64, .f32⟩
  | 59 => ⟨S200000x64, .f32⟩
  | 60 => ⟨S200000x64, .f32⟩
  | 61 => ⟨S2000000x8, .f32⟩
  | 62 => ⟨S2000000x64, .f32⟩
  | 63 => ⟨S_, .i32⟩
  | 64 => ⟨S2000000, .i32⟩
  | 65 => ⟨S2000000, .i1⟩
  | 66 => ⟨S_, .i32⟩
  | 67 => ⟨S2000000, .i32⟩
  | 68 => ⟨S2000000, .i32⟩
  | 69 => ⟨S2000000, .i32⟩
  | 70 => ⟨S2000000x1, .i32⟩
  | 71 => ⟨S2000000x64, .f32⟩
  | 72 => ⟨S2000000x64, .f32⟩
  | 73 => ⟨S_, .f32⟩
  | 74 => ⟨S200000x64, .f32⟩
  | 75 => ⟨S2000000x1, .i32⟩
  | 76 => ⟨S200000x64, .f32⟩
  | 77 => ⟨S200000x128, .f32⟩
  | 78 => ⟨S200000x128, .f32⟩
  | 79 => ⟨S200000x128, .f32⟩
  | 80 => ⟨S_, .f32⟩
  | 81 => ⟨S200000x128, .f32⟩
  | 82 => ⟨S200000x128, .f32⟩
  | 83 => ⟨S_, .f32⟩
  | 84 => ⟨S200000x128, .f32⟩
  | 85 => ⟨S200000x128, .f32⟩
  | 86 => ⟨S200000x128, .f32⟩
  | 87 => ⟨S200000x128, .f32⟩
  | 88 => ⟨S200000x128, .f32⟩
  | 89 => ⟨S1x128, .f32⟩
  | 90 => ⟨S200000x128, .f32⟩
  | 91 => ⟨S200000x128, .f32⟩
  | 92 => ⟨S200000x128, .f32⟩
  | 93 => ⟨S200000x128, .f32⟩
  | 94 => ⟨S_, .f32⟩
  | 95 => ⟨S200000x128, .f32⟩
  | 96 => ⟨S200000x128, .f32⟩
  | 97 => ⟨S_, .f32⟩
  | 98 => ⟨S200000x128, .f32⟩
  | 99 => ⟨S200000x128, .f32⟩
  | 100 => ⟨S200000x128, .f32⟩
  | 101 => ⟨S200000x128, .f32⟩
  | 102 => ⟨S200000x128, .f32⟩
  | 103 => ⟨S1x128, .f32⟩
  | 104 => ⟨S200000x128, .f32⟩
  | 105 => ⟨S200000x128, .f32⟩
  | 106 => ⟨S200000x128, .f32⟩
  | 107 => ⟨S200000x128, .f32⟩
  | 108 => ⟨S_, .f32⟩
  | 109 => ⟨S200000x128, .f32⟩
  | 110 => ⟨S200000x128, .f32⟩
  | 111 => ⟨S_, .f32⟩
  | 112 => ⟨S200000x128, .f32⟩
  | 113 => ⟨S200000x128, .f32⟩
  | 114 => ⟨S200000x128, .f32⟩
  | 115 => ⟨S_, .f32⟩
  | 116 => ⟨S128, .f32⟩
  | 117 => ⟨S_, .f32⟩
  | 118 => ⟨S128, .f32⟩
  | 119 => ⟨S128, .f32⟩
  | 120 => ⟨S1x128, .f32⟩
  | 121 => ⟨S200000x128, .f32⟩
  | 122 => ⟨S200000x128, .f32⟩
  | 123 => ⟨S200000x128, .f32⟩
  | 124 => ⟨S_, .f32⟩
  | 125 => ⟨S128, .f32⟩
  | 126 => ⟨S_, .f32⟩
  | 127 => ⟨S128, .f32⟩
  | _ => ⟨S200000x128, .f32⟩

abbrev hbmTy0_1 (i : Nat) : BufTy := match i % 128 with
  | 0 => ⟨S128, .f32⟩
  | 1 => ⟨S1x128, .f32⟩
  | 2 => ⟨S200000x128, .f32⟩
  | 3 => ⟨S200000x128, .f32⟩
  | 4 => ⟨S_, .f32⟩
  | 5 => ⟨S128, .f32⟩
  | 6 => ⟨S128, .f32⟩
  | 7 => ⟨S128, .f32⟩
  | 8 => ⟨S1x128, .f32⟩
  | 9 => ⟨S200000x128, .f32⟩
  | 10 => ⟨S200000x128, .f32⟩
  | 11 => ⟨S1x128, .f32⟩
  | 12 => ⟨S200000x128, .f32⟩
  | 13 => ⟨S200000x128, .f32⟩
  | 14 => ⟨S1x128, .f32⟩
  | 15 => ⟨S200000x128, .f32⟩
  | 16 => ⟨S200000x128, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_c : Ref sig .tc := ⟨.hbm, 63, rfl⟩
abbrev main_v17 : Ref sig .tc := ⟨.hbm, 64, rfl⟩
abbrev main_v18 : Ref sig .tc := ⟨.hbm, 65, rfl⟩
abbrev main_c_0 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_cst : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_call3_v0 : Ref sig .tc := ⟨.hbm, 78, rfl⟩
abbrev main_call3_v1 : Ref sig .tc := ⟨.hbm, 79, rfl⟩
abbrev main_call3_cst : Ref sig .tc := ⟨.hbm, 80, rfl⟩
abbrev main_call3_v2 : Ref sig .tc := ⟨.hbm, 81, rfl⟩
abbrev main_call3_v3 : Ref sig .tc := ⟨.hbm, 82, rfl⟩
abbrev main_call3_cst_0 : Ref sig .tc := ⟨.hbm, 83, rfl⟩
abbrev main_call3_v4 : Ref sig .tc := ⟨.hbm, 84, rfl⟩
abbrev main_call3_v5 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_call4_v0 : Ref sig .tc := ⟨.hbm, 92, rfl⟩
abbrev main_call4_v1 : Ref sig .tc := ⟨.hbm, 93, rfl⟩
abbrev main_call4_cst : Ref sig .tc := ⟨.hbm, 94, rfl⟩
abbrev main_call4_v2 : Ref sig .tc := ⟨.hbm, 95, rfl⟩
abbrev main_call4_v3 : Ref sig .tc := ⟨.hbm, 96, rfl⟩
abbrev main_call4_cst_0 : Ref sig .tc := ⟨.hbm, 97, rfl⟩
abbrev main_call4_v4 : Ref sig .tc := ⟨.hbm, 98, rfl⟩
abbrev main_call4_v5 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_call5_v0 : Ref sig .tc := ⟨.hbm, 106, rfl⟩
abbrev main_call5_v1 : Ref sig .tc := ⟨.hbm, 107, rfl⟩
abbrev main_call5_cst : Ref sig .tc := ⟨.hbm, 108, rfl⟩
abbrev main_call5_v2 : Ref sig .tc := ⟨.hbm, 109, rfl⟩
abbrev main_call5_v3 : Ref sig .tc := ⟨.hbm, 110, rfl⟩
abbrev main_call5_cst_0 : Ref sig .tc := ⟨.hbm, 111, rfl⟩
abbrev main_call5_v4 : Ref sig .tc := ⟨.hbm, 112, rfl⟩
abbrev main_call5_v5 : Ref sig .tc := ⟨.hbm, 113, rfl⟩
abbrev main_v41 : Ref sig .tc := ⟨.hbm, 114, rfl⟩
abbrev main_cst_1 : Ref sig .tc := ⟨.hbm, 115, rfl⟩
abbrev main_v42 : Ref sig .tc := ⟨.hbm, 116, rfl⟩
abbrev main_cst_2 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_cst_3 : Ref sig .tc := ⟨.hbm, 124, rfl⟩
abbrev main_v49 : Ref sig .tc := ⟨.hbm, 125, rfl⟩
abbrev main_cst_4 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_cst_5 : Ref sig .tc := ⟨.hbm, 132, rfl⟩
abbrev main_v55 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S_S200000x64 : S_.BroadcastsInDim S200000x64 (![] : Fin 0 → Fin S200000x64.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  reducesTo_S200000x128_S128_d0 : S200000x128.ReducesTo [0] S128
  h_S_ : 0 < S_.numel
  bcast_S_S128 : S_.BroadcastsInDim S128 (![] : Fin 0 → Fin S128.rank)
  dot_S200000x128_S128x128_S200000x128_1_0_0_1_n_n_wf : DotDims.WF S200000x128 S128x128 S200000x128 [1] [0] [0] [1] [] []
  dot_S200000x6_S6x8_S200000x8_1_0_0_1_n_n_wf : DotDims.WF S200000x6 S6x8 S200000x8 [1] [0] [0] [1] [] []
  dot_S200000x8_S8x128_S200000x128_1_0_0_1_n_n_wf : DotDims.WF S200000x8 S8x128 S200000x128 [1] [0] [0] [1] [] []
  dot_S200000x128_S128x64_S200000x64_1_0_0_1_n_n_wf : DotDims.WF S200000x128 S128x64 S200000x64 [1] [0] [0] [1] [] []
  dot_S2000000x42_S42x8_S2000000x8_1_0_0_1_n_n_wf : DotDims.WF S2000000x42 S42x8 S2000000x8 [1] [0] [0] [1] [] []
  dot_S2000000x8_S8x64_S2000000x64_1_0_0_1_n_n_wf : DotDims.WF S2000000x8 S8x64 S2000000x64 [1] [0] [0] [1] [] []
  gather_S200000x64_S2000000x1_S2000000x64_1_0_n_n_0_1_164_wf : GatherDims.WF S200000x64 S2000000x1 S2000000x64 [1] [0] [] [0] [] 1 ![1, 64]
  scatter_S200000x64_S2000000x1_S2000000x64_1_0_0_1_wf : ScatterDims.WF S200000x64 S2000000x1 S2000000x64 [1] [0] [0] 1
  dot_S200000x64_S64x128_S200000x128_1_0_0_1_n_n_wf : DotDims.WF S200000x64 S64x128 S200000x128 [1] [0] [0] [1] [] []

variable [Facts₀]

def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S200000x6_S6x8_S200000x8_1_0_0_1_n_n : DotDims S200000x6 S6x8 S200000x8 where
  lhsContracting := [1]
  rhsContracting := [0]
  lhsNonContracting := [0]
  rhsNonContracting := [1]
  lhsBatch := []
  rhsBatch := []
  wf := dot_S200000x6_S6x8_S200000x8_1_0_0_1_n_n_wf
def dot_S200000x8_S8x128_S200000x128_1_0_0_1_n_n : DotDims S200000x8 S8x128 S200000x128 where
  lhsContracting := [1]
  rhsContracting := [0]
  lhsNonContracting := [0]
  rhsNonContracting := [1]
  lhsBatch := []
  rhsBatch := []
  wf := dot_S200000x8_S8x128_S200000x128_1_0_0_1_n_n_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def dot_S2000000x42_S42x8_S2000000x8_1_0_0_1_n_n : DotDims S2000000x42 S42x8 S2000000x8 where
  lhsContracting := [1]
  rhsContracting := [0]
  lhsNonContracting := [0]
  rhsNonContracting := [1]
  lhsBatch := []
  rhsBatch := []
  wf := dot_S2000000x42_S42x8_S2000000x8_1_0_0_1_n_n_wf
def dot_S2000000x8_S8x64_S2000000x64_1_0_0_1_n_n : DotDims S2000000x8 S8x64 S2000000x64 where
  lhsContracting := [1]
  rhsContracting := [0]
  lhsNonContracting := [0]
  rhsNonContracting := [1]
  lhsBatch := []
  rhsBatch := []
  wf := dot_S2000000x8_S8x64_S2000000x64_1_0_0_1_n_n_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf

class Facts : Prop extends Facts₀ where

variable [Facts]
-- ==== Proof.KRun.lean ====
/-
  The idealized kernel's run, with every buffer it leaves named.

  @main is seven stretches: host operations, the first region, host operations (the row gather), the second region,
  host operations (the scatter-add), the third region, and the normalisation. The contents of the TensorCore's
  buffers at each boundary form a fold from the launch memory. This file runs the seven stretches once and keeps, for
  every final state, that each unscoped buffer holds the last boundary's contents: the result buffer among them, and
  each argument (which the fold walks back to the launch memory).
-/
import proofs.«101107_j5952824672720_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding plain
-- definitions in a metavariable's type
set_option backward.isDefEq.respectTransparency.types false in
/-- Every weakly fair execution of @main terminates without a fault, and in every final state each unscoped buffer of
    each core holds the contents of the last boundary of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.Whole

end
-- ==== Proof.LibDense.lean ====
/-
  Two general facts about a plain matrix product at the exact instance.

  A product of an [M, K] by a [K, N] operand that contracts the first operand's columns against the
  second's rows (no batch axis) has, at the output position (r, c), the operand positions (r, k) and
  (k, c) as k runs over the K contracted positions. So its sum over the contraction's index type is the
  sum over `Fin K` of the first operand at (r, k) times the second at (k, c) — the textbook entry of the
  product. Stated for any dimension record with those four index facts, so that a kernel's matrix unit
  and a host's dot product read the same way.
-/
import Idealize.ShloMosaic.Lib.ValueIdx
import Idealize.ShloMosaic.PureOps.Ideal.Laws

noncomputable section

namespace Cert.LibDense

open Idealize.ShloMosaic Idealize.ShloMosaic.ValueIdx

/-- A row of `K` extended reals against column `j` of a [K, N] matrix. -/
def dense {K N : ℕ} (x : Fin K → EReal) (W : (⟨2, ![K, N]⟩ : Shape).Idx → EReal) (j : Fin N) : EReal :=
  ∑ k : Fin K, x k * W (ix2 k j)

/-- The sum over a one-axis contraction of extent `K`, re-indexed by `Fin K`, when the operand positions are
    (row, k) and (k, column). -/
theorem sum_contr_plain {M K N : ℕ} (d : DotDims (⟨2, ![M, K]⟩ : Shape) (⟨2, ![K, N]⟩ : Shape) (⟨2, ![M, N]⟩ : Shape))
    (hr : d.contr.rank = 1) (hs : d.contr.size ⟨0, by omega⟩ = K)
    (j : (⟨2, ![M, N]⟩ : Shape).Idx)
    (hl0 : ∀ q, (d.lhsIdx j q 0).val = (j 0).val) (hl1 : ∀ q, (d.lhsIdx j q 1).val = (q ⟨0, by omega⟩).val)
    (hr0 : ∀ q, (d.rhsIdx j q 0).val = (q ⟨0, by omega⟩).val) (hr1 : ∀ q, (d.rhsIdx j q 1).val = (j 1).val)
    (l : (⟨2, ![M, K]⟩ : Shape).Idx → EReal) (r : (⟨2, ![K, N]⟩ : Shape).Idx → EReal) :
    ∑ q : d.contr.Idx, l (d.lhsIdx j q) * r (d.rhsIdx j q) = dense (fun k => l (ix2 (j 0) k)) r (j 1) := by
  unfold dense
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ => exact hl0 _
    | ⟨1, _⟩ => exact (hl1 _).trans hk)
  have er : d.rhsIdx j ((contrEquiv1 d K hr hs).symm k) = ix2 k (j 1) := funext fun a => Fin.ext (by
    match a with
    | ⟨0, _⟩ => exact (hr0 _).trans hk
    | ⟨1, _⟩ => exact hr1 _)
  rw [el, er]
  rfl

/-- The matrix unit's product into a zero accumulator, read at (r, c): the textbook entry. -/
theorem matmul_zero_plain {M K N : ℕ} {φ₁ φ₂ : FTy}
    (d : DotDims (⟨2, ![M, K]⟩ : Shape) (⟨2, ![K, N]⟩ : Shape) (⟨2, ![M, N]⟩ : Shape)) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : FVec Ideal (⟨2, ![M, K]⟩ : Shape) φ₁) (r : FVec Ideal (⟨2, ![K, N]⟩ : Shape) φ₂) (a : Fin M) (b : Fin N) :
    FloatOps.matmul d prec l r (constant (⟨2, ![M, N]⟩ : Shape) .f32 0x00000000#32) (ix2 a b)
      = dense (fun k => l (ix2 a k)) r b :=
  (Ideal.matmul_constant_zero_apply d prec l r (ix2 a b)).trans
    (sum_contr_plain d hr hs (ix2 a b) (hl0 _) (hl1 _) (hr0 _) (hr1 _) l r)

end Cert.LibDense

end
-- ==== Proof.KEntries.lean ====
/-
  The kernel's matrix products, entry by entry.

  Each of the kernel's seven matrix-unit operations multiplies a block of rows [M, K] by a weight matrix [K, N] into a
  zero accumulator, contracting the block's columns against the matrix's rows. At the exact instance its entry at
  (a, b) is therefore the textbook sum  ∑ k, l (a, k) · r (k, b). The four facts about where the dimension record reads
  its operands are checked per record; the sum itself is the general lemma.
-/
import proofs.«101107_j5952824672720_1_alg».proof.Proof.Gen.KernelIdeal
import proofs.«101107_j5952824672720_1_alg».proof.Proof.LibDense

noncomputable section

namespace Cert.KernelIdeal.Entries

open Cert.KernelIdeal Idealize.ShloMosaic Idealize.ShloMosaic.ValueIdx Cert.LibDense

/-- The product of a [2000, 128] block by a [128, 128] matrix into zero, at (a, b). -/
theorem mm_S2000x128_S128x128 {φ₁ φ₂ : FTy} (l : FVec Ideal S2000x128 φ₁) (r : FVec Ideal S128x128 φ₂) (a : Fin 2000) (b : Fin 128) :
    matmul dot_S2000x128_S128x128_S2000x128_1_0_0_1_n_n none l r (constant S2000x128 .f32 0x00000000#32) (ix2 a b) = dense (fun k => l (ix2 a k)) r b :=
  matmul_zero_plain dot_S2000x128_S128x128_S2000x128_1_0_0_1_n_n none rfl rfl
    (fun j q => by
      unfold DotDims.lhsIdx
      rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
      rfl)
    (fun j q => dot_S2000x128_S128x128_S2000x128_1_0_0_1_n_n.lhsIdx_val_of_single rfl j q)
    (fun j q => dot_S2000x128_S128x128_S2000x128_1_0_0_1_n_n.rhsIdx_val_of_single rfl j q)
    (fun j q => by
      unfold DotDims.rhsIdx
      rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
      rfl)
    l r a b

/-- The product of a [2000, 6] block by a [6, 8] matrix into zero, at (a, b). -/
theorem mm_S2000x6_S6x8 {φ₁ φ₂ : FTy} (l : FVec Ideal S2000x6 φ₁) (r : FVec Ideal S6x8 φ₂) (a : Fin 2000) (b : Fin 8) :
    matmul dot_S2000x6_S6x8_S2000x8_1_0_0_1_n_n none l r (constant S2000x8 .f32 0x00000000#32) (ix2 a b) = dense (fun k => l (ix2 a k)) r b :=
  matmul_zero_plain dot_S2000x6_S6x8_S2000x8_1_0_0_1_n_n none rfl rfl
    (fun j q => by
      unfold DotDims.lhsIdx
      rw [dif_neg (show ¬(0 : Fin S2000x6.rank) ∈ dot_S2000x6_S6x8_S2000x8_1_0_0_1_n_n.lhsBatch by decide), dif_pos (show (0 : Fin S2000x6.rank) ∈ dot_S2000x6_S6x8_S2000x8_1_0_0_1_n_n.lhsNonContracting by decide)]
      rfl)
    (fun j q => dot_S2000x6_S6x8_S2000x8_1_0_0_1_n_n.lhsIdx_val_of_single rfl j q)
    (fun j q => dot_S2000x6_S6x8_S2000x8_1_0_0_1_n_n.rhsIdx_val_of_single rfl j q)
    (fun j q => by
      unfold DotDims.rhsIdx
      rw [dif_neg (show ¬(1 : Fin S6x8.rank) ∈ dot_S2000x6_S6x8_S2000x8_1_0_0_1_n_n.rhsBatch by decide), dif_pos (show (1 : Fin S6x8.rank) ∈ dot_S2000x6_S6x8_S2000x8_1_0_0_1_n_n.rhsNonContracting by decide)]
      rfl)
    l r a b

/-- The product of a [2000, 8] block by a [8, 128] matrix into zero, at (a, b). -/
theorem mm_S2000x8_S8x128 {φ₁ φ₂ : FTy} (l : FVec Ideal S2000x8 φ₁) (r : FVec Ideal S8x128 φ₂) (a : Fin 2000) (b : Fin 128) :
    matmul dot_S2000x8_S8x128_S2000x128_1_0_0_1_n_n none l r (constant S2000x128 .f32 0x00000000#32) (ix2 a b) = dense (fun k => l (ix2 a k)) r b :=
  matmul_zero_plain dot_S2000x8_S8x128_S2000x128_1_0_0_1_n_n none rfl rfl
    (fun j q => by
      unfold DotDims.lhsIdx
      rw [dif_neg (show ¬(0 : Fin S2000x8.rank) ∈ dot_S2000x8_S8x128_S2000x128_1_0_0_1_n_n.lhsBatch by decide), dif_pos (show (0 : Fin S2000x8.rank) ∈ dot_S2000x8_S8x128_S2000x128_1_0_0_1_n_n.lhsNonContracting by decide)]
      rfl)
    (fun j q => dot_S2000x8_S8x128_S2000x128_1_0_0_1_n_n.lhsIdx_val_of_single rfl j q)
    (fun j q => dot_S2000x8_S8x128_S2000x128_1_0_0_1_n_n.rhsIdx_val_of_single rfl j q)
    (fun j q => by
      unfold DotDims.rhsIdx
      rw [dif_neg (show ¬(1 : Fin S8x128.rank) ∈ dot_S2000x8_S8x128_S2000x128_1_0_0_1_n_n.rhsBatch by decide), dif_pos (show (1 : Fin S8x128.rank) ∈ dot_S2000x8_S8x128_S2000x128_1_0_0_1_n_n.rhsNonContracting by decide)]
      rfl)
    l r a b

/-- The product of a [2000, 128] block by a [128, 64] matrix into zero, at (a, b). -/
theorem mm_S2000x128_S128x64 {φ₁ φ₂ : FTy} (l : FVec Ideal S2000x128 φ₁) (r : FVec Ideal S128x64 φ₂) (a : Fin 2000) (b : Fin 64) :
    matmul dot_S2000x128_S128x64_S2000x64_1_0_0_1_n_n none l r (constant S2000x64 .f32 0x00000000#32) (ix2 a b) = dense (fun k => l (ix2 a k)) r b :=
  matmul_zero_plain dot_S2000x128_S128x64_S2000x64_1_0_0_1_n_n none rfl rfl
    (fun j q => by
      unfold DotDims.lhsIdx
      rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
      rfl)
    (fun j q => dot_S2000x128_S128x64_S2000x64_1_0_0_1_n_n.lhsIdx_val_of_single rfl j q)
    (fun j q => dot_S2000x128_S128x64_S2000x64_1_0_0_1_n_n.rhsIdx_val_of_single rfl j q)
    (fun j q => by
      unfold DotDims.rhsIdx
      rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
      rfl)
    l r a b

/-- The product of a [8000, 42] block by a [42, 8] matrix into zero, at (a, b). -/
theorem mm_S8000x42_S42x8 {φ₁ φ₂ : FTy} (l : FVec Ideal S8000x42 φ₁) (r : FVec Ideal S42x8 φ₂) (a : Fin 8000) (b : Fin 8) :
    matmul dot_S8000x42_S42x8_S8000x8_1_0_0_1_n_n none l r (constant S8000x8 .f32 0x00000000#32) (ix2 a b) = dense (fun k => l (ix2 a k)) r b :=
  matmul_zero_plain dot_S8000x42_S42x8_S8000x8_1_0_0_1_n_n none rfl rfl
    (fun j q => by
      unfold DotDims.lhsIdx
      rw [dif_neg (show ¬(0 : Fin S8000x42.rank) ∈ dot_S8000x42_S42x8_S8000x8_1_0_0_1_n_n.lhsBatch by decide), dif_pos (show (0 : Fin S8000x42.rank) ∈ dot_S8000x42_S42x8_S8000x8_1_0_0_1_n_n.lhsNonContracting by decide)]
      rfl)
    (fun j q => dot_S8000x42_S42x8_S8000x8_1_0_0_1_n_n.lhsIdx_val_of_single rfl j q)
    (fun j q => dot_S8000x42_S42x8_S8000x8_1_0_0_1_n_n.rhsIdx_val_of_single rfl j q)
    (fun j q => by
      unfold DotDims.rhsIdx
      rw [dif_neg (show ¬(1 : Fin S42x8.rank) ∈ dot_S8000x42_S42x8_S8000x8_1_0_0_1_n_n.rhsBatch by decide), dif_pos (show (1 : Fin S42x8.rank) ∈ dot_S8000x42_S42x8_S8000x8_1_0_0_1_n_n.rhsNonContracting by decide)]
      rfl)
    l r a b

/-- The product of a [8000, 8] block by a [8, 64] matrix into zero, at (a, b). -/
theorem mm_S8000x8_S8x64 {φ₁ φ₂ : FTy} (l : FVec Ideal S8000x8 φ₁) (r : FVec Ideal S8x64 φ₂) (a : Fin 8000) (b : Fin 64) :
    matmul dot_S8000x8_S8x64_S8000x64_1_0_0_1_n_n none l r (constant S8000x64 .f32 0x00000000#32) (ix2 a b) = dense (fun k => l (ix2 a k)) r b :=
  matmul_zero_plain dot_S8000x8_S8x64_S8000x64_1_0_0_1_n_n none rfl rfl
    (fun j q => by
      unfold DotDims.lhsIdx
      rw [dif_neg (show ¬(0 : Fin S8000x8.rank) ∈ dot_S8000x8_S8x64_S8000x64_1_0_0_1_n_n.lhsBatch by decide), dif_pos (show (0 : Fin S8000x8.rank) ∈ dot_S8000x8_S8x64_S8000x64_1_0_0_1_n_n.lhsNonContracting by decide)]
      rfl)
    (fun j q => dot_S8000x8_S8x64_S8000x64_1_0_0_1_n_n.lhsIdx_val_of_single rfl j q)
    (fun j q => dot_S8000x8_S8x64_S8000x64_1_0_0_1_n_n.rhsIdx_val_of_single rfl j q)
    (fun j q => by
      unfold DotDims.rhsIdx
      rw [dif_neg (show ¬(1 : Fin S8x64.rank) ∈ dot_S8000x8_S8x64_S8000x64_1_0_0_1_n_n.rhsBatch by decide), dif_pos (show (1 : Fin S8x64.rank) ∈ dot_S8000x8_S8x64_S8000x64_1_0_0_1_n_n.rhsNonContracting by decide)]
      rfl)
    l r a b

/-- The product of a [2000, 64] block by a [64, 128] matrix into zero, at (a, b). -/
theorem mm_S2000x64_S64x128 {φ₁ φ₂ : FTy} (l : FVec Ideal S2000x64 φ₁) (r : FVec Ideal S64x128 φ₂) (a : Fin 2000) (b : Fin 128) :
    matmul dot_S2000x64_S64x128_S2000x128_1_0_0_1_n_n none l r (constant S2000x128 .f32 0x00000000#32) (ix2 a b) = dense (fun k => l (ix2 a k)) r b :=
  matmul_zero_plain dot_S2000x64_S64x128_S2000x128_1_0_0_1_n_n none rfl rfl
    (fun j q => by
      unfold DotDims.lhsIdx
      rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
      rfl)
    (fun j q => dot_S2000x64_S64x128_S2000x128_1_0_0_1_n_n.lhsIdx_val_of_single rfl j q)
    (fun j q => dot_S2000x64_S64x128_S2000x128_1_0_0_1_n_n.rhsIdx_val_of_single rfl j q)
    (fun j q => by
      unfold DotDims.rhsIdx
      rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
      rfl)
    l r a b

end Cert.KernelIdeal.Entries

end
-- ==== Proof.LibExtReal.lean ====
/-
  Small general facts about float values read as extended reals.

  The words of the float one and of plus infinity denote `1` and `⊤`. A quotient by a nonzero REAL divisor is the
  product with one over the divisor, whatever the dividend (infinities included); at a zero divisor the two differ
  (`0 / 0` against `0 · (1 / 0)`), so the hypothesis is needed. A finite sum of reals read in the extended reals is the
  sum of the readings. An extended real whose absolute value `max x (-x)` is below `⊤` is a real. A comparison word
  that is one says its relation holds (less-than; not-equal).
-/
import Idealize.ShloMosaic.PureOps.Ideal.Laws

noncomputable section

namespace Cert.LibExtReal

open Idealize.ShloMosaic

/-- The word of the float one denotes the real one. -/
theorem ofBits_one : Ideal.ofBits .f32 0x3F800000#32 = 1 := by
  simp [Ideal.ofBits, Ideal.ieee, -EReal.coe_mul]; norm_num

/-- The word of plus infinity denotes the top element. -/
theorem ofBits_inf : Ideal.ofBits .f32 0x7F800000#32 = ⊤ := by simp [Ideal.ofBits, Ideal.ieee]

/-- A quotient by a nonzero real is the product with one over it. -/
theorem div_eq_mul_recip (a d : EReal) (y : ℝ) (hy : y ≠ 0) (hd : d = (y : EReal)) :
    Ideal.div a d = a * Ideal.div (Ideal.ofBits .f32 0x3F800000#32) d := by
  subst hd
  rw [Ideal.div_coe hy, Ideal.div_coe hy, ofBits_one, one_mul]

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real whose absolute value is below the top element is a real. -/
theorem real_of_abs_lt_top (x : EReal) (h : max x (-x) < ⊤) : ∃ y : ℝ, x = (y : EReal) := by
  induction x using EReal.rec with
  | bot => simp at h
  | coe y => exact ⟨y, rfl⟩
  | top => simp at h

/-- A less-than comparison word that is one: the left value is below the right. -/
theorem lt_of_cmp_olt {x y : EReal} (h : Ideal.cmp .olt x y = 1#1) : x < y := by
  unfold Ideal.cmp at h
  by_contra hn
  simp [hn] at h

/-- A not-equal comparison word that is one: the two values differ. -/
theorem ne_of_cmp_une {x y : EReal} (h : Ideal.cmp .une x y = 1#1) : x ≠ y := by
  unfold Ideal.cmp at h
  intro hn
  simp [hn] at h

end Cert.LibExtReal

end
-- ==== Proof.Rows.lean ====
/-
  The mathematics of one row.

  Every dense stage of the block acts on one row of its operands at a time: a row of the edge features is
  multiplied by a weight matrix, a bias row is added, and SiLU  z ↦ z · 1/(1 + e^(-z))  is applied entrywise. So the
  value of each stage at row r depends on row r of its row-wise operands and on the whole weight matrices only. This
  file states those row functions on the extended reals, with a matrix product's entry written as the finite sum
  `dense x W j = ∑ k, x k · W (k, j)`. Both programs are later read, row by row, as these functions.
-/
import Idealize.ShloMosaic.Lib.ValueIdx
import Idealize.ShloMosaic.PureOps.Ideal.Laws
import proofs.«101107_j5952824672720_1_alg».proof.Proof.LibDense
import proofs.«101107_j5952824672720_1_alg».proof.Proof.LibExtReal

noncomputable section

namespace Cert.Rows

open Idealize.ShloMosaic Idealize.ShloMosaic.ValueIdx Cert.LibDense

/-- A [K, N] matrix of extended reals. -/
abbrev Mat (K N : ℕ) : Type := (⟨2, ![K, N]⟩ : Shape).Idx → EReal

/-- SiLU on the extended reals: z times the logistic function of z. -/
def silu (z : EReal) : EReal := z * Ideal.logistic z

/-- The logistic function is, by definition, 1 / (1 + e^(-z)); so SiLU spelt with a quotient whose numerator and
    whose added constant are the float word of 1.0 is the same function. -/
theorem silu_quotient (z : EReal) :
    z * Ideal.div (Ideal.ofBits .f32 0x3F800000#32) (Ideal.ofBits .f32 0x3F800000#32 + Ideal.exp (-z)) = silu z := by
  rw [Cert.LibExtReal.ofBits_one]; rfl

/-- A linear layer followed by SiLU, at output column j:  silu (∑ k, x k · W (k, j) + b j). -/
def act {K N : ℕ} (x : Fin K → EReal) (W : Mat K N) (b : Fin N → EReal) (j : Fin N) : EReal :=
  silu (dense x W j + b j)

/-- The radial-basis embedding of a row: two matrix products in a row, no bias, no activation. -/
def twice {A B N : ℕ} (x : Fin A → EReal) (W1 : Mat A B) (W2 : Mat B N) (j : Fin N) : EReal :=
  dense (fun a => dense x W1 a) W2 j

/-- The down-projected message source of an edge:
    silu ( ( silu (x·W_kj + b_kj) ⊙ ((rbf·W_rbf1)·W_rbf2) ) · W_down ). -/
def down (x : Fin 128 → EReal) (rbf : Fin 6 → EReal) (Wkj : Mat 128 128) (bkj : Fin 128 → EReal)
    (Wr1 : Mat 6 8) (Wr2 : Mat 8 128) (Wd : Mat 128 64) (j : Fin 64) : EReal :=
  silu (dense (fun k => act x Wkj bkj k * twice rbf Wr1 Wr2 k) Wd j)

/-- The output row before normalisation: with u = silu (agg · W_up),
    silu ( ( silu ((x_ji + u)·W_lin + b_lin) + x ) · W_out + b_out ). -/
def outRow (agg : Fin 64 → EReal) (xji x : Fin 128 → EReal) (Wup : Mat 64 128) (Wlin : Mat 128 128) (blin : Fin 128 → EReal)
    (Wout : Mat 128 128) (bout : Fin 128 → EReal) (j : Fin 128) : EReal :=
  act (fun k => act (fun k' => xji k' + silu (dense agg Wup k')) Wlin blin k + x k) Wout bout j

/-! ## The stages as whole arrays: row r of the result is the row function of row r of the operands -/

/-- x_ji = silu (x·W_ji + b_ji), all rows. -/
def xjiArr (x : Mat 200000 128) (W : Mat 128 128) (b : Fin 128 → EReal) : Mat 200000 128 :=
  fun i => act (fun k => x (ix2 (i 0) k)) W b (i 1)

/-- The down-projected message source, all rows. -/
def downArr (x : Mat 200000 128) (rbf : Mat 200000 6) (Wkj : Mat 128 128) (bkj : Fin 128 → EReal)
    (Wr1 : Mat 6 8) (Wr2 : Mat 8 128) (Wd : Mat 128 64) : Mat 200000 64 :=
  fun i => down (fun k => x (ix2 (i 0) k)) (fun k => rbf (ix2 (i 0) k)) Wkj bkj Wr1 Wr2 Wd (i 1)

/-- The spherical-basis embedding (sbf·W_sbf1)·W_sbf2, all rows. -/
def sbfArr (sbf : Mat 2000000 42) (W1 : Mat 42 8) (W2 : Mat 8 64) : Mat 2000000 64 :=
  fun i => twice (fun k => sbf (ix2 (i 0) k)) W1 W2 (i 1)

/-- The output before normalisation, all rows. -/
def outArr (agg : Mat 200000 64) (xji x : Mat 200000 128) (Wup : Mat 64 128) (Wlin : Mat 128 128) (blin : Fin 128 → EReal)
    (Wout : Mat 128 128) (bout : Fin 128 → EReal) : Mat 200000 128 :=
  fun i => outRow (fun k => agg (ix2 (i 0) k)) (fun k => xji (ix2 (i 0) k)) (fun k => x (ix2 (i 0) k)) Wup Wlin blin Wout bout (i 1)

/-! ## Equal operands give equal rows -/

theorem act_congr {K N : ℕ} {x x' : Fin K → EReal} {W W' : Mat K N} {b b' : Fin N → EReal} {j j' : Fin N}
    (hx : x = x') (hW : W = W') (hb : b = b') (hj : j = j') : act x W b j = act x' W' b' j' := by
  subst hx hW hb hj; rfl

theorem twice_congr {A B N : ℕ} {x x' : Fin A → EReal} {W1 W1' : Mat A B} {W2 W2' : Mat B N} {j j' : Fin N}
    (hx : x = x') (h1 : W1 = W1') (h2 : W2 = W2') (hj : j = j') : twice x W1 W2 j = twice x' W1' W2' j' := by
  subst hx h1 h2 hj; rfl

theorem down_congr {x x' : Fin 128 → EReal} {rbf rbf' : Fin 6 → EReal} {Wkj Wkj' : Mat 128 128} {bkj bkj' : Fin 128 → EReal}
    {Wr1 Wr1' : Mat 6 8} {Wr2 Wr2' : Mat 8 128} {Wd Wd' : Mat 128 64} {j j' : Fin 64}
    (hx : x = x') (hr : rbf = rbf') (hk : Wkj = Wkj') (hb : bkj = bkj') (h1 : Wr1 = Wr1') (h2 : Wr2 = Wr2') (hd : Wd = Wd') (hj : j = j') :
    down x rbf Wkj bkj Wr1 Wr2 Wd j = down x' rbf' Wkj' bkj' Wr1' Wr2' Wd' j' := by
  subst hx hr hk hb h1 h2 hd hj; rfl

theorem outRow_congr {agg agg' : Fin 64 → EReal} {xji xji' x x' : Fin 128 → EReal} {Wup Wup' : Mat 64 128} {Wlin Wlin' : Mat 128 128}
    {blin blin' : Fin 128 → EReal} {Wout Wout' : Mat 128 128} {bout bout' : Fin 128 → EReal} {j j' : Fin 128}
    (ha : agg = agg') (hji : xji = xji') (hx : x = x') (hu : Wup = Wup') (hl : Wlin = Wlin') (hbl : blin = blin')
    (ho : Wout = Wout') (hbo : bout = bout') (hj : j = j') :
    outRow agg xji x Wup Wlin blin Wout bout j = outRow agg' xji' x' Wup' Wlin' blin' Wout' bout' j' := by
  subst ha hji hx hu hl hbl ho hbo hj; rfl

end Cert.Rows

end
-- ==== Proof.KRows.lean ====
/-
  What each kernel body computes, at one position of its block.

  A body loads a block of rows and the whole weight matrices, and stores pointwise and matrix-unit operations of them.
  At the exact instance a change of float format is the identity, a pointwise operation acts entry by entry, a bias row
  [1, 128] broadcast over the block's rows reads the bias at the entry's column, and a matrix product into zero has the
  textbook entry. So the stored value at (p, q) is the row function of row p of each row-wise block.
-/
import proofs.«101107_j5952824672720_1_alg».proof.Proof.Gen.KernelIdeal.Skeleton
import proofs.«101107_j5952824672720_1_alg».proof.Proof.KEntries
import proofs.«101107_j5952824672720_1_alg».proof.Proof.Rows
import Idealize.ShloMosaic.Lib.Pipeline.Value
import Idealize.ShloMosaic.Lib.ValueLayout

noncomputable section

namespace Cert.KernelIdeal.PayRows

open Cert.KernelIdeal Cert.KernelIdeal.Gen Cert.KernelIdeal.Entries
open Idealize.ShloMosaic Idealize.ShloMosaic.ValueIdx Cert.LibDense

/-- The logistic function applied to a vector acts entry by entry. -/
theorem logistic_at {s : Shape} {φ : FTy} (x : FVec Ideal s φ) (i : s.Idx) : logistic x i = Ideal.logistic (x i) := rfl

/-- A bias row [1, 128] broadcast over 2000 rows reads, at (p, q), the bias at column q. -/
theorem bias_row (v : FVec Ideal S1x128 .f32) (p : Fin 2000) (q : Fin 128) :
    broadcastTo S2000x128 (shapeCast S1x128 v shapeCasts_S1x128_S1x128) broadcasts_S1x128_S2000x128 (ix2 p q) = v (ix2 0 q) := by
  rw [broadcastTo_1b_ab_apply, shapeCast_self]

/-- A cast of a block to its own shape reads the block. -/
theorem cast_self_at {s : Shape} (v : FVec Ideal s .f32) (h : s.ShapeCasts s) (i : s.Idx) : shapeCast s v h i = v i := by
  rw [shapeCast_self]

/-- Stage one, first output: x_ji's block at (p, q) is the linear layer with SiLU of row p. -/
theorem xji_at (v0 : Vec Ideal S2000x128 .f32) (v2 : Vec Ideal S128x128 .f32) (v5 : Vec Ideal S1x128 .f32) (p : Fin 2000) (q : Fin 128) :
    k0_pay2 (F := Ideal) v0 v2 v5 (ix2 p q) = Rows.act (fun k => v0 (ix2 p k)) v2 (fun j => v5 (ix2 0 j)) q := by
  simp only [k0_pay2, k0_pay1, mulf_apply, addf_apply, logistic_at, mm_S2000x128_S128x128, bias_row, truncf_apply]
  rfl

/-- Stage one, second output: the down-projected message source's block at (p, q). -/
theorem down_at (v0 : Vec Ideal S2000x128 .f32) (v11 : Vec Ideal S128x128 .f32) (v14 : Vec Ideal S1x128 .f32) (v20 : Vec Ideal S2000x6 .f32)
    (v22 : Vec Ideal S6x8 .f32) (v26 : Vec Ideal S8x128 .f32) (v31 : Vec Ideal S128x64 .f32) (p : Fin 2000) (q : Fin 64) :
    k0_pay3 (F := Ideal) v0 v11 v14 v20 v22 v26 v31 (ix2 p q)
      = Rows.down (fun k => v0 (ix2 p k)) (fun k => v20 (ix2 p k)) v11 (fun j => v14 (ix2 0 j)) v22 v26 v31 q := by
  simp only [k0_pay3, k0_pay1, mulf_apply, addf_apply, logistic_at, mm_S2000x128_S128x128, mm_S2000x6_S6x8, mm_S2000x8_S8x128,
    mm_S2000x128_S128x64, bias_row, truncf_apply]
  rfl

/-- Stage two: the message block at (p, q) is the spherical-basis embedding of row p times the gathered entry. -/
theorem msg_at (v0 : Vec Ideal S8000x42 .f32) (v2 : Vec Ideal S42x8 .f32) (v6 : Vec Ideal S8x64 .f32) (v9 : Vec Ideal S8000x64 .f32)
    (p : Fin 8000) (q : Fin 64) :
    k1_pay1 (F := Ideal) v0 v2 v6 v9 (ix2 p q) = Rows.twice (fun k => v0 (ix2 p k)) v2 v6 q * v9 (ix2 p q) := by
  simp only [k1_pay1, mulf_apply, mm_S8000x42_S42x8, mm_S8000x8_S8x64, cast_self_at, truncf_apply]
  rfl

/-- Stage four: the pre-normalisation output block at (p, q). -/
theorem out_at (v0 : Vec Ideal S2000x64 .f32) (v3 : Vec Ideal S64x128 .f32) (v8 : Vec Ideal S2000x128 .f32) (v12 : Vec Ideal S128x128 .f32)
    (v15 : Vec Ideal S1x128 .f32) (v21 : Vec Ideal S2000x128 .f32) (v24 : Vec Ideal S128x128 .f32) (v27 : Vec Ideal S1x128 .f32)
    (p : Fin 2000) (q : Fin 128) :
    k2_pay1 (F := Ideal) v0 v3 v8 v12 v15 v21 v24 v27 (ix2 p q)
      = Rows.outRow (fun k => v0 (ix2 p k)) (fun k => v8 (ix2 p k)) (fun k => v21 (ix2 p k)) v3 v12 (fun j => v15 (ix2 0 j)) v24
          (fun j => v27 (ix2 0 j)) q := by
  simp only [k2_pay1, mulf_apply, addf_apply, logistic_at, mm_S2000x64_S64x128, mm_S2000x128_S128x128, bias_row, cast_self_at, truncf_apply]
  rfl

end Cert.KernelIdeal.PayRows

end
-- ==== Proof.KArrays.lean ====
/-
  From blocks to arrays.

  Each region runs its body once per grid point on a block of rows — rows 2000·t … 2000·t + 1999 (8000 per point in
  the second region) of every row-wise operand, and the whole of every weight matrix — and writes the block it
  computed back to the same rows of its output array. A body's value at a position of its block is the row function of
  that row of the operands, so what point t writes back is block t of ONE whole-array function of the arrays the region
  finds; and the blocks cover the output array, row r lying in the block of point r / 2000. Hence each output array ends
  holding that function. Everything is stated at the contents `V` the region is entered with.
-/
import proofs.«101107_j5952824672720_1_alg».proof.Proof.Gen.KernelIdeal.Frame
import proofs.«101107_j5952824672720_1_alg».proof.Proof.KRows

set_option maxRecDepth 16384

noncomputable section

namespace Cert.KernelIdeal.Arrays

open Cert.KernelIdeal Cert.KernelIdeal.Gen Cert.KernelIdeal.PayRows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The first region: x_ji and the down-projected message source -/

/-- The index maps over the grid: a row-wise window is at block (t, 0), a weight matrix at block (0, 0). -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_9.index t (0 : Fin 2) = t.val
    ∧ win0_9.index t (1 : Fin 2) = 0
    ∧ win0_10.index t (0 : Fin 2) = t.val
    ∧ win0_10.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0 :=
  (by decide +kernel : ∀ t : Fin grid0.N, _)

/-- x_ji as a function of the arrays the region finds (the bias as a [1, 128] row). -/
def G0_9 (X0 : S200000x128.Idx → EReal) (X2 : S128x128.Idx → EReal) (X3 : S1x128.Idx → EReal) : S200000x128.Idx → EReal :=
  fun i => Rows.act (fun k => X0 (ix2 (i 0) k)) X2 (fun q => X3 (ix2 0 q)) (i 1)

theorem G0_9_eq (X0 : S200000x128.Idx → EReal) (X2 : S128x128.Idx → EReal) (X3 : S1x128.Idx → EReal) :
    G0_9 X0 X2 X3 = Rows.xjiArr X0 X2 (fun q => X3 (ix2 0 q)) := rfl

-- one goal per operand block: many small steps
set_option maxHeartbeats 4000000 in
/-- What point t writes back to x_ji's array is block t of that function. -/
theorem flushed0_9 (c : Dev nD) (t : Fin cfg0.N) :
    (dat0 V c).flushed 9 t = ((cfg0.win 9).blk t).view.read (Elt Ideal) (G0_9 (V c (Pipeline.arrRef spec0 0)) (V c (Pipeline.arrRef spec0 2)) (V c (Pipeline.arrRef spec0 3))) := by
  show (cfg0.win 9).cut (grid0.coords t) ((dat0 V c).after 9 t) = _
  rw [after0_9]
  unfold out0_9
  rw [View.canon_unit_zero hz]
  simp only [View.ld_unit_zero (S := S2000x128) hz, View.ld_unit_zero (S := S128x128) hz, View.ld_unit_zero (S := S1x128) hz]
  funext y
  show k0_pay2 (F := Ideal) (iblk0 V c 0 t) (iblk0 V c 2 t) (iblk0 V c 3 t) y
    = G0_9 (V c (Pipeline.arrRef spec0 0)) (V c (Pipeline.arrRef spec0 2)) (V c (Pipeline.arrRef spec0 3)) (((cfg0.win 9).blk t).view.emb y)
  obtain ⟨e0, e1, e2, e3, e4, e5, e6, e7, e8, e9, e10, e11, e12, e13, e14, e15, e16, e17, e18, e19, e20, e21⟩ := idx0 t
  have hp : (y 0).val < 2000 := (y 0).isLt
  have hq : (y 1).val < 128 := (y 1).isLt
  refine ((congrArg (k0_pay2 (F := Ideal) (iblk0 V c 0 t) (iblk0 V c 2 t) (iblk0 V c 3 t)) (eq_ix2 y)).trans
    (xji_at (iblk0 V c 0 t) (iblk0 V c 2 t) (iblk0 V c 3 t) (y 0) (y 1))).trans ?_
  refine Rows.act_congr (funext fun k => congrArg (V c (Pipeline.arrRef spec0 0)) ?_) (funext fun z => congrArg (V c (Pipeline.arrRef spec0 2)) ?_)
    (funext fun j => congrArg (V c (Pipeline.arrRef spec0 3)) ?_) ?_
  · funext a; apply Fin.ext
    match a with
    | ⟨0, _⟩ => show win0_0.index t (0 : Fin 2) * 2000 + 1 * (y 0).val = win0_9.index t (0 : Fin 2) * 2000 + 1 * (y 0).val; omega
    | ⟨1, _⟩ => show win0_0.index t (1 : Fin 2) * 128 + 1 * k.val = k.val; omega
  · funext a; apply Fin.ext
    match a with
    | ⟨0, _⟩ => show win0_2.index t (0 : Fin 2) * 128 + 1 * (z 0).val = (z 0).val; omega
    | ⟨1, _⟩ => show win0_2.index t (1 : Fin 2) * 128 + 1 * (z 1).val = (z 1).val; omega
  · funext a; apply Fin.ext
    match a with
    | ⟨0, _⟩ => show win0_3.index t (0 : Fin 2) * 1 + 1 * 0 = 0; omega
    | ⟨1, _⟩ => show win0_3.index t (1 : Fin 2) * 128 + 1 * j.val = j.val; omega
  · apply Fin.ext
    show (y 1).val = win0_9.index t (1 : Fin 2) * 128 + 1 * (y 1).val; omega

/-- An index of the array is in point t's block iff each coordinate is in the block's range on its axis. -/
theorem mem_blk0_9 (t : Fin cfg0.N) (i : S200000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v2_0).slice (win0_9.rect t)).set ↔ _
  rw [View.set_slice_whole, Rect.mem_set_unit]
  exact Iff.rfl

/-- Row r of the array lies in the block of point r / 2000: the blocks cover the array. -/
theorem cover0_9 (i : S200000x128.Idx) : ∃ t : Fin cfg0.N, (cfg0.win 9).flush t = true ∧ i ∈ ((cfg0.win 9).blk t).view.set := by
  have hi0 : (i 0).val < 200000 := (i 0).isLt
  have hi1 : (i 1).val < 128 := (i 1).isLt
  have hN : grid0.N = 100 := N_0
  let t : Fin cfg0.N := ⟨(i 0).val / 2000, by show (i 0).val / 2000 < grid0.N; omega⟩
  have ht : t.val = (i 0).val / 2000 := rfl
  obtain ⟨e0, e1, e2, e3, e4, e5, e6, e7, e8, e9, e10, e11, e12, e13, e14, e15, e16, e17, e18, e19, e20, e21⟩ := idx0 t
  refine ⟨t, flush0_9 t, ?_⟩
  rw [mem_blk0_9]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 128 ≤ (i 1).val ∧ (i 1).val < win0_9.index t (1 : Fin 2) * 128 + 128; omega

/-- x_ji's array after the region. -/
theorem final0_9 (c : Dev nD) : (dat0 V c).arrAt 9 cfg0.N = G0_9 (V c (Pipeline.arrRef spec0 0)) (V c (Pipeline.arrRef spec0 2)) (V c (Pipeline.arrRef spec0 3)) :=
  (dat0 V c).arrAt_eq_of_cover 9 _ (fun t _ => flushed0_9 V c t) cover0_9

/-- The down-projected message source as a function of the arrays the region finds. -/
def G0_10 (X0 : S200000x128.Idx → EReal) (X1 : S200000x6.Idx → EReal) (X4 : S128x128.Idx → EReal) (X5 : S1x128.Idx → EReal)
    (X6 : S6x8.Idx → EReal) (X7 : S8x128.Idx → EReal) (X8 : S128x64.Idx → EReal) : S200000x64.Idx → EReal :=
  Rows.downArr X0 X1 X4 (fun q => X5 (ix2 0 q)) X6 X7 X8

-- one goal per operand block: many small steps
set_option maxHeartbeats 4000000 in
theorem flushed0_10 (c : Dev nD) (t : Fin cfg0.N) :
    (dat0 V c).flushed 10 t = ((cfg0.win 10).blk t).view.read (Elt Ideal)
      (G0_10 (V c (Pipeline.arrRef spec0 0)) (V c (Pipeline.arrRef spec0 1)) (V c (Pipeline.arrRef spec0 4)) (V c (Pipeline.arrRef spec0 5)) (V c (Pipeline.arrRef spec0 6)) (V c (Pipeline.arrRef spec0 7)) (V c (Pipeline.arrRef spec0 8))) := by
  show (cfg0.win 10).cut (grid0.coords t) ((dat0 V c).after 10 t) = _
  rw [after0_10]
  unfold out0_10
  rw [View.canon_unit_zero hz]
  simp only [View.ld_unit_zero (S := S2000x128) hz, View.ld_unit_zero (S := S128x128) hz, View.ld_unit_zero (S := S1x128) hz, View.ld_unit_zero (S := S2000x6) hz, View.ld_unit_zero (S := S6x8) hz, View.ld_unit_zero (S := S8x128) hz, View.ld_unit_zero (S := S128x64) hz]
  funext y
  show k0_pay3 (F := Ideal) (iblk0 V c 0 t) (iblk0 V c 4 t) (iblk0 V c 5 t) (iblk0 V c 1 t) (iblk0 V c 6 t) (iblk0 V c 7 t) (iblk0 V c 8 t) y
    = G0_10 (V c (Pipeline.arrRef spec0 0)) (V c (Pipeline.arrRef spec0 1)) (V c (Pipeline.arrRef spec0 4)) (V c (Pipeline.arrRef spec0 5)) (V c (Pipeline.arrRef spec0 6)) (V c (Pipeline.arrRef spec0 7)) (V c (Pipeline.arrRef spec0 8)) (((cfg0.win 10).blk t).view.emb y)
  obtain ⟨e0, e1, e2, e3, e4, e5, e6, e7, e8, e9, e10, e11, e12, e13, e14, e15, e16, e17, e18, e19, e20, e21⟩ := idx0 t
  have hp : (y 0).val < 2000 := (y 0).isLt
  have hq : (y 1).val < 64 := (y 1).isLt
  refine ((congrArg (k0_pay3 (F := Ideal) (iblk0 V c 0 t) (iblk0 V c 4 t) (iblk0 V c 5 t) (iblk0 V c 1 t) (iblk0 V c 6 t) (iblk0 V c 7 t) (iblk0 V c 8 t)) (eq_ix2 y)).trans
    (down_at (iblk0 V c 0 t) (iblk0 V c 4 t) (iblk0 V c 5 t) (iblk0 V c 1 t) (iblk0 V c 6 t) (iblk0 V c 7 t) (iblk0 V c 8 t) (y 0) (y 1))).trans ?_
  refine Rows.down_congr (funext fun k => congrArg (V c (Pipeline.arrRef spec0 0)) ?_) (funext fun k => congrArg (V c (Pipeline.arrRef spec0 1)) ?_)
    (funext fun z => congrArg (V c (Pipeline.arrRef spec0 4)) ?_) (funext fun j => congrArg (V c (Pipeline.arrRef spec0 5)) ?_) (funext fun z => congrArg (V c (Pipeline.arrRef spec0 6)) ?_)
    (funext fun z => congrArg (V c (Pipeline.arrRef spec0 7)) ?_) (funext fun z => congrArg (V c (Pipeline.arrRef spec0 8)) ?_) ?_
  · funext a; apply Fin.ext
    match a with
    | ⟨0, _⟩ => show win0_0.index t (0 : Fin 2) * 2000 + 1 * (y 0).val = win0_10.index t (0 : Fin 2) * 2000 + 1 * (y 0).val; omega
    | ⟨1, _⟩ => show win0_0.index t (1 : Fin 2) * 128 + 1 * k.val = k.val; omega
  · funext a; apply Fin.ext
    match a with
    | ⟨0, _⟩ => show win0_1.index t (0 : Fin 2) * 2000 + 1 * (y 0).val = win0_10.index t (0 : Fin 2) * 2000 + 1 * (y 0).val; omega
    | ⟨1, _⟩ => show win0_1.index t (1 : Fin 2) * 6 + 1 * k.val = k.val; omega
  · funext a; apply Fin.ext
    match a with
    | ⟨0, _⟩ => show win0_4.index t (0 : Fin 2) * 128 + 1 * (z 0).val = (z 0).val; omega
    | ⟨1, _⟩ => show win0_4.index t (1 : Fin 2) * 128 + 1 * (z 1).val = (z 1).val; omega
  · funext a; apply Fin.ext
    match a with
    | ⟨0, _⟩ => show win0_5.index t (0 : Fin 2) * 1 + 1 * 0 = 0; omega
    | ⟨1, _⟩ => show win0_5.index t (1 : Fin 2) * 128 + 1 * j.val = j.val; omega
  · funext a; apply Fin.ext
    match a with
    | ⟨0, _⟩ => show win0_6.index t (0 : Fin 2) * 6 + 1 * (z 0).val = (z 0).val; omega
    | ⟨1, _⟩ => show win0_6.index t (1 : Fin 2) * 8 + 1 * (z 1).val = (z 1).val; omega
  · funext a; apply Fin.ext
    match a with
    | ⟨0, _⟩ => show win0_7.index t (0 : Fin 2) * 8 + 1 * (z 0).val = (z 0).val; omega
    | ⟨1, _⟩ => show win0_7.index t (1 : Fin 2) * 128 + 1 * (z 1).val = (z 1).val; omega
  · funext a; apply Fin.ext
    match a with
    | ⟨0, _⟩ => show win0_8.index t (0 : Fin 2) * 128 + 1 * (z 0).val = (z 0).val; omega
    | ⟨1, _⟩ => show win0_8.index t (1 : Fin 2) * 64 + 1 * (z 1).val = (z 1).val; omega
  · apply Fin.ext
    show (y 1).val = win0_10.index t (1 : Fin 2) * 64 + 1 * (y 1).val; omega

/-- An index of the array is in point t's block iff each coordinate is in the block's range on its axis. -/
theorem mem_blk0_10 (t : Fin cfg0.N) (i : S200000x64.Idx) :
    i ∈ ((cfg0.win 10).blk t).view.set ↔ ∀ a : Fin 2, win0_10.index t a * S2000x64.size a ≤ (i a).val ∧ (i a).val < win0_10.index t a * S2000x64.size a + S2000x64.size a := by
  show i ∈ ((View.whole main_v2_1).slice (win0_10.rect t)).set ↔ _
  rw [View.set_slice_whole, Rect.mem_set_unit]
  exact Iff.rfl

/-- Row r of the array lies in the block of point r / 2000: the blocks cover the array. -/
theorem cover0_10 (i : S200000x64.Idx) : ∃ t : Fin cfg0.N, (cfg0.win 10).flush t = true ∧ i ∈ ((cfg0.win 10).blk t).view.set := by
  have hi0 : (i 0).val < 200000 := (i 0).isLt
  have hi1 : (i 1).val < 64 := (i 1).isLt
  have hN : grid0.N = 100 := N_0
  let t : Fin cfg0.N := ⟨(i 0).val / 2000, by show (i 0).val / 2000 < grid0.N; omega⟩
  have ht : t.val = (i 0).val / 2000 := rfl
  obtain ⟨e0, e1, e2, e3, e4, e5, e6, e7, e8, e9, e10, e11, e12, e13, e14, e15, e16, e17, e18, e19, e20, e21⟩ := idx0 t
  refine ⟨t, flush0_10 t, ?_⟩
  rw [mem_blk0_10]
  intro a
  match a with
  | ⟨0, _⟩ => show win0_10.index t (0 : Fin 2) * 2000 ≤ (i 0).val ∧ (i 0).val < win0_10.index t (0 : Fin 2) * 2000 + 2000; omega
  | ⟨1, _⟩ => show win0_10.index t (1 : Fin 2) * 64 ≤ (i 1).val ∧ (i 1).val < win0_10.index t (1 : Fin 2) * 64 + 64; omega

/-- The down-projected message source's array after the region. -/
theorem final0_10 (c : Dev nD) : (dat0 V c).arrAt 10 cfg0.N
    = G0_10 (V c (Pipeline.arrRef spec0 0)) (V c (Pipeline.arrRef spec0 1)) (V c (Pipeline.arrRef spec0 4)) (V c (Pipeline.arrRef spec0 5)) (V c (Pipeline.arrRef spec0 6)) (V c (Pipeline.arrRef spec0 7)) (V c (Pipeline.arrRef spec0 8)) :=
  (dat0 V c).arrAt_eq_of_cover 10 _ (fun t _ => flushed0_10 V c t) cover0_10

/-! ## The second region: the messages -/

theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_4.index t (0 : Fin 2) = t.val
    ∧ win1_4.index t (1 : Fin 2) = 0
    ∧ win1_2.index t (0 : Fin 2) = 0
    ∧ win1_2.index t (1 : Fin 2) = 0
    ∧ win1_3.index t (0 : Fin 2) = 0
    ∧ win1_3.index t (1 : Fin 2) = 0 :=
  (by decide +kernel : ∀ t : Fin grid1.N, _)

/-- The messages: the spherical-basis embedding of a triplet times its gathered source entry. -/
def G1_4 (X0 : S2000000x42.Idx → EReal) (X1 : S2000000x64.Idx → EReal) (X2 : S42x8.Idx → EReal) (X3 : S8x64.Idx → EReal) :
    S2000000x64.Idx → EReal :=
  fun i => Rows.sbfArr X0 X2 X3 i * X1 i

-- one goal per operand block: many small steps
set_option maxHeartbeats 4000000 in
theorem flushed1_4 (c : Dev nD) (t : Fin cfg1.N) :
    (dat1 V c).flushed 4 t = ((cfg1.win 4).blk t).view.read (Elt Ideal) (G1_4 (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero hz]
  simp only [View.ld_unit_zero (S := S8000x42) hz, View.ld_unit_zero (S := S42x8) hz, View.ld_unit_zero (S := S8x64) hz, View.ld_unit_zero (S := S8000x64) hz]
  funext y
  show k1_pay1 (F := Ideal) (iblk1 V c 0 t) (iblk1 V c 2 t) (iblk1 V c 3 t) (iblk1 V c 1 t) y
    = G1_4 (V c (Pipeline.arrRef spec1 0)) (V c (Pipeline.arrRef spec1 1)) (V c (Pipeline.arrRef spec1 2)) (V c (Pipeline.arrRef spec1 3)) (((cfg1.win 4).blk t).view.emb y)
  obtain ⟨e0, e1, e2, e3, e4, e5, e6, e7, e8, e9⟩ := idx1 t
  have hp : (y 0).val < 8000 := (y 0).isLt
  have hq : (y 1).val < 64 := (y 1).isLt
  refine ((congrArg (k1_pay1 (F := Ideal) (iblk1 V c 0 t) (iblk1 V c 2 t) (iblk1 V c 3 t) (iblk1 V c 1 t)) (eq_ix2 y)).trans
    (msg_at (iblk1 V c 0 t) (iblk1 V c 2 t) (iblk1 V c 3 t) (iblk1 V c 1 t) (y 0) (y 1))).trans ?_
  refine congrArg₂ (· * ·) (Rows.twice_congr (funext fun k => congrArg (V c (Pipeline.arrRef spec1 0)) ?_) (funext fun z => congrArg (V c (Pipeline.arrRef spec1 2)) ?_)
    (funext fun z => congrArg (V c (Pipeline.arrRef spec1 3)) ?_) ?_) (congrArg (V c (Pipeline.arrRef spec1 1)) ?_)
  · funext a; apply Fin.ext
    match a with
    | ⟨0, _⟩ => show win1_0.index t (0 : Fin 2) * 8000 + 1 * (y 0).val = win1_4.index t (0 : Fin 2) * 8000 + 1 * (y 0).val; omega
    | ⟨1, _⟩ => show win1_0.index t (1 : Fin 2) * 42 + 1 * k.val = k.val; omega
  · funext a; apply Fin.ext
    match a with
    | ⟨0, _⟩ => show win1_2.index t (0 : Fin 2) * 42 + 1 * (z 0).val = (z 0).val; omega
    | ⟨1, _⟩ => show win1_2.index t (1 : Fin 2) * 8 + 1 * (z 1).val = (z 1).val; omega
  · funext a; apply Fin.ext
    match a with
    | ⟨0, _⟩ => show win1_3.index t (0 : Fin 2) * 8 + 1 * (z 0).val = (z 0).val; omega
    | ⟨1, _⟩ => show win1_3.index t (1 : Fin 2) * 64 + 1 * (z 1).val = (z 1).val; omega
  · apply Fin.ext
    show (y 1).val = win1_4.index t (1 : Fin 2) * 64 + 1 * (y 1).val; omega
  · funext a; apply Fin.ext
    match a with
    | ⟨0, _⟩ => show win1_1.index t (0 : Fin 2) * 8000 + 1 * (y 0).val = win1_4.index t (0 : Fin 2) * 8000 + 1 * (y 0).val; omega
    | ⟨1, _⟩ => show win1_1.index t (1 : Fin 2) * 64 + 1 * (y 1).val = win1_4.index t (1 : Fin 2) * 64 + 1 * (y 1).val; omega

/-- An index of the array is in point t's block iff each coordinate is in the block's range on its axis. -/
theorem mem_blk1_4 (t : Fin cfg1.N) (i : S2000000x64.Idx) :
    i ∈ ((cfg1.win 4).blk t).view.set ↔ ∀ a : Fin 2, win1_4.index t a * S8000x64.size a ≤ (i a).val ∧ (i a).val < win1_4.index t a * S8000x64.size a + S8000x64.size a := by
  show i ∈ ((View.whole main_v10).slice (win1_4.rect t)).set ↔ _
  rw [View.set_slice_whole, Rect.mem_set_unit]
  exact Iff.rfl

/-- Row r of the array lies in the block of point r / 8000: the blocks cover the array. -/
theorem cover1_4 (i : S2000000x64.Idx) : ∃ t : Fin cfg1.N, (cfg1.win 4).flush t = true ∧ i ∈ ((cfg1.win 4).blk t).view.set := by
  have hi0 : (i 0).val < 2000000 := (i 0).isLt
  have hi1 : (i 1).val < 64 := (i 1).isLt
  have hN : grid1.N = 250 := N_1
  let t : Fin cfg1.N := ⟨(i 0).val / 8000, by show (i 0).val / 8000 < grid1.N; omega⟩
  have ht : t.val = (i 0).val / 8000 := rfl
  obtain ⟨e0, e1, e2, e3, e4, e5, e6, e7, e8, e9⟩ := idx1 t
  refine ⟨t, flush1_4 t, ?_⟩
  rw [mem_blk1_4]
  intro a
  match a with
  | ⟨0, _⟩ => show win1_4.index t (0 : Fin 2) * 8000 ≤ (i 0).val ∧ (i 0).val < win1_4.index t (0 : Fin 2) * 8000 + 8000; omega
  | ⟨1, _⟩ => show win1_4.index t (1 : Fin 2) * 64 ≤ (i 1).val ∧ (i 1).val < win1_4.index t (1 : Fin 2) * 64 + 64; omega

/-- The messages' array after the region. -/
theorem final1_4 (c : Dev nD) : (dat1 V c).arrAt 4 cfg1.N = G1_4 (V c (Pipeline.arrRef spec1 0)) (V c (Pipeline.arrRef spec1 1)) (V c (Pipeline.arrRef spec1 2)) (V c (Pipeline.arrRef spec1 3)) :=
  (dat1 V c).arrAt_eq_of_cover 4 _ (fun t _ => flushed1_4 V c t) cover1_4

/-! ## The third region: the output before normalisation -/

theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_8.index t (0 : Fin 2) = t.val
    ∧ win2_8.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0 :=
  (by decide +kernel : ∀ t : Fin grid2.N, _)

/-- The output before normalisation as a function of the arrays the region finds. -/
def G2_8 (X0 : S200000x64.Idx → EReal) (X1 X2 : S200000x128.Idx → EReal) (X3 : S64x128.Idx → EReal) (X4 : S128x128.Idx → EReal)
    (X5 : S1x128.Idx → EReal) (X6 : S128x128.Idx → EReal) (X7 : S1x128.Idx → EReal) : S200000x128.Idx → EReal :=
  fun i => Rows.outRow (fun k => X0 (ix2 (i 0) k)) (fun k => X1 (ix2 (i 0) k)) (fun k => X2 (ix2 (i 0) k)) X3 X4 (fun q => X5 (ix2 0 q)) X6
    (fun q => X7 (ix2 0 q)) (i 1)

theorem G2_8_eq (X0 : S200000x64.Idx → EReal) (X1 X2 : S200000x128.Idx → EReal) (X3 : S64x128.Idx → EReal) (X4 : S128x128.Idx → EReal)
    (X5 : S1x128.Idx → EReal) (X6 : S128x128.Idx → EReal) (X7 : S1x128.Idx → EReal) :
    G2_8 X0 X1 X2 X3 X4 X5 X6 X7 = Rows.outArr X0 X1 X2 X3 X4 (fun q => X5 (ix2 0 q)) X6 (fun q => X7 (ix2 0 q)) := rfl

-- one goal per operand block: many small steps
set_option maxHeartbeats 4000000 in
theorem flushed2_8 (c : Dev nD) (t : Fin cfg2.N) :
    (dat2 V c).flushed 8 t = ((cfg2.win 8).blk t).view.read (Elt Ideal)
      (G2_8 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7))) := by
  show (cfg2.win 8).cut (grid2.coords t) ((dat2 V c).after 8 t) = _
  rw [after2_8]
  unfold out2_8
  rw [View.canon_unit_zero hz]
  simp only [View.ld_unit_zero (S := S2000x64) hz, View.ld_unit_zero (S := S64x128) hz, View.ld_unit_zero (S := S2000x128) hz, View.ld_unit_zero (S := S128x128) hz, View.ld_unit_zero (S := S1x128) hz]
  funext y
  show k2_pay1 (F := Ideal) (iblk2 V c 0 t) (iblk2 V c 3 t) (iblk2 V c 1 t) (iblk2 V c 4 t) (iblk2 V c 5 t) (iblk2 V c 2 t) (iblk2 V c 6 t) (iblk2 V c 7 t) y
    = G2_8 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (((cfg2.win 8).blk t).view.emb y)
  obtain ⟨e0, e1, e2, e3, e4, e5, e6, e7, e8, e9, e10, e11, e12, e13, e14, e15, e16, e17⟩ := idx2 t
  have hp : (y 0).val < 2000 := (y 0).isLt
  have hq : (y 1).val < 128 := (y 1).isLt
  refine ((congrArg (k2_pay1 (F := Ideal) (iblk2 V c 0 t) (iblk2 V c 3 t) (iblk2 V c 1 t) (iblk2 V c 4 t) (iblk2 V c 5 t) (iblk2 V c 2 t) (iblk2 V c 6 t) (iblk2 V c 7 t)) (eq_ix2 y)).trans
    (out_at (iblk2 V c 0 t) (iblk2 V c 3 t) (iblk2 V c 1 t) (iblk2 V c 4 t) (iblk2 V c 5 t) (iblk2 V c 2 t) (iblk2 V c 6 t) (iblk2 V c 7 t) (y 0) (y 1))).trans ?_
  refine Rows.outRow_congr (funext fun k => congrArg (V c (Pipeline.arrRef spec2 0)) ?_) (funext fun k => congrArg (V c (Pipeline.arrRef spec2 1)) ?_)
    (funext fun k => congrArg (V c (Pipeline.arrRef spec2 2)) ?_) (funext fun z => congrArg (V c (Pipeline.arrRef spec2 3)) ?_) (funext fun z => congrArg (V c (Pipeline.arrRef spec2 4)) ?_)
    (funext fun j => congrArg (V c (Pipeline.arrRef spec2 5)) ?_) (funext fun z => congrArg (V c (Pipeline.arrRef spec2 6)) ?_) (funext fun j => congrArg (V c (Pipeline.arrRef spec2 7)) ?_) ?_
  · funext a; apply Fin.ext
    match a with
    | ⟨0, _⟩ => show win2_0.index t (0 : Fin 2) * 2000 + 1 * (y 0).val = win2_8.index t (0 : Fin 2) * 2000 + 1 * (y 0).val; omega
    | ⟨1, _⟩ => show win2_0.index t (1 : Fin 2) * 64 + 1 * k.val = k.val; omega
  · funext a; apply Fin.ext
    match a with
    | ⟨0, _⟩ => show win2_1.index t (0 : Fin 2) * 2000 + 1 * (y 0).val = win2_8.index t (0 : Fin 2) * 2000 + 1 * (y 0).val; omega
    | ⟨1, _⟩ => show win2_1.index t (1 : Fin 2) * 128 + 1 * k.val = k.val; omega
  · funext a; apply Fin.ext
    match a with
    | ⟨0, _⟩ => show win2_2.index t (0 : Fin 2) * 2000 + 1 * (y 0).val = win2_8.index t (0 : Fin 2) * 2000 + 1 * (y 0).val; omega
    | ⟨1, _⟩ => show win2_2.index t (1 : Fin 2) * 128 + 1 * k.val = k.val; omega
  · funext a; apply Fin.ext
    match a with
    | ⟨0, _⟩ => show win2_3.index t (0 : Fin 2) * 64 + 1 * (z 0).val = (z 0).val; omega
    | ⟨1, _⟩ => show win2_3.index t (1 : Fin 2) * 128 + 1 * (z 1).val = (z 1).val; omega
  · funext a; apply Fin.ext
    match a with
    | ⟨0, _⟩ => show win2_4.index t (0 : Fin 2) * 128 + 1 * (z 0).val = (z 0).val; omega
    | ⟨1, _⟩ => show win2_4.index t (1 : Fin 2) * 128 + 1 * (z 1).val = (z 1).val; omega
  · funext a; apply Fin.ext
    match a with
    | ⟨0, _⟩ => show win2_5.index t (0 : Fin 2) * 1 + 1 * 0 = 0; omega
    | ⟨1, _⟩ => show win2_5.index t (1 : Fin 2) * 128 + 1 * j.val = j.val; omega
  · funext a; apply Fin.ext
    match a with
    | ⟨0, _⟩ => show win2_6.index t (0 : Fin 2) * 128 + 1 * (z 0).val = (z 0).val; omega
    | ⟨1, _⟩ => show win2_6.index t (1 : Fin 2) * 128 + 1 * (z 1).val = (z 1).val; omega
  · funext a; apply Fin.ext
    match a with
    | ⟨0, _⟩ => show win2_7.index t (0 : Fin 2) * 1 + 1 * 0 = 0; omega
    | ⟨1, _⟩ => show win2_7.index t (1 : Fin 2) * 128 + 1 * j.val = j.val; omega
  · apply Fin.ext
    show (y 1).val = win2_8.index t (1 : Fin 2) * 128 + 1 * (y 1).val; omega

/-- An index of the array is in point t's block iff each coordinate is in the block's range on its axis. -/
theorem mem_blk2_8 (t : Fin cfg2.N) (i : S200000x128.Idx) :
    i ∈ ((cfg2.win 8).blk t).view.set ↔ ∀ a : Fin 2, win2_8.index t a * S2000x128.size a ≤ (i a).val ∧ (i a).val < win2_8.index t a * S2000x128.size a + S2000x128.size a := by
  show i ∈ ((View.whole main_v16).slice (win2_8.rect t)).set ↔ _
  rw [View.set_slice_whole, Rect.mem_set_unit]
  exact Iff.rfl

/-- Row r of the array lies in the block of point r / 2000: the blocks cover the array. -/
theorem cover2_8 (i : S200000x128.Idx) : ∃ t : Fin cfg2.N, (cfg2.win 8).flush t = true ∧ i ∈ ((cfg2.win 8).blk t).view.set := by
  have hi0 : (i 0).val < 200000 := (i 0).isLt
  have hi1 : (i 1).val < 128 := (i 1).isLt
  have hN : grid2.N = 100 := N_2
  let t : Fin cfg2.N := ⟨(i 0).val / 2000, by show (i 0).val / 2000 < grid2.N; omega⟩
  have ht : t.val = (i 0).val / 2000 := rfl
  obtain ⟨e0, e1, e2, e3, e4, e5, e6, e7, e8, e9, e10, e11, e12, e13, e14, e15, e16, e17⟩ := idx2 t
  refine ⟨t, flush2_8 t, ?_⟩
  rw [mem_blk2_8]
  intro a
  match a with
  | ⟨0, _⟩ => show win2_8.index t (0 : Fin 2) * 2000 ≤ (i 0).val ∧ (i 0).val < win2_8.index t (0 : Fin 2) * 2000 + 2000; omega
  | ⟨1, _⟩ => show win2_8.index t (1 : Fin 2) * 128 ≤ (i 1).val ∧ (i 1).val < win2_8.index t (1 : Fin 2) * 128 + 128; omega

/-- The pre-normalisation output's array after the region. -/
theorem final2_8 (c : Dev nD) : (dat2 V c).arrAt 8 cfg2.N = G2_8 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) :=
  (dat2 V c).arrAt_eq_of_cover 8 _ (fun t _ => flushed2_8 V c t) cover2_8

end Cert.KernelIdeal.Arrays

end
-- ==== Proof.LibDenseHost.lean ====
/-
  The host's matrix product, entry by entry.

  At the exact instance a host dot product of an [M, K] by a [K, N] operand, contracting the first operand's columns
  against the second's rows, has at (a, b) the textbook entry  ∑ k, l (a, k) · r (k, b)  — the same sum as the matrix
  unit's product into a zero accumulator. Stated for any dimension record with the four operand-position facts.
-/
import Idealize.ShloMosaic.Lib.ValueIdx
import Idealize.ShloMosaic.PureOps.Ideal.Laws
import proofs.«101107_j5952824672720_1_alg».proof.Proof.LibDense

noncomputable section

namespace Cert.LibDenseHost

open Idealize.ShloMosaic Idealize.ShloMosaic.ValueIdx Cert.LibDense

/-- The host's dot product of a plain [M, K] by [K, N] pair, read at (a, b): the textbook entry. -/
theorem dotGeneral_plain {M K N : ℕ} {φ₁ φ₂ : FTy}
    (d : DotDims (⟨2, ![M, K]⟩ : Shape) (⟨2, ![K, N]⟩ : Shape) (⟨2, ![M, N]⟩ : Shape)) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : FVec Ideal (⟨2, ![M, K]⟩ : Shape) φ₁) (r : FVec Ideal (⟨2, ![K, N]⟩ : Shape) φ₂) (a : Fin M) (b : Fin N) :
    Host.dotGeneral d prec l r (ix2 a b) = dense (fun k => l (ix2 a k)) r b := by
  simp only [Host.dotGeneral]
  rw [Ideal.dotGeneral_apply]
  exact sum_contr_plain d hr hs (ix2 a b) (hl0 _) (hl1 _) (hr0 _) (hr1 _) l r

end Cert.LibDenseHost

end
-- ==== Proof.RRows.lean ====
/-
  The reference, stage by stage, at one position.

  Each dense stage of the reference is a host matrix product, a bias row broadcast over all rows, and SiLU spelt as
  z · (1 / (1 + e^(-z))). Read at (r, j), a matrix product is the textbook sum over the contracted axis, the broadcast
  bias is the bias at column j, and the quotient form of SiLU is SiLU. So each stage at (r, j) is the row function of
  row r of the stages before it — the same row functions the kernel's blocks compute.
-/
import proofs.«101107_j5952824672720_1_alg».proof.Proof.Gen.ReferenceIdeal.Read
import proofs.«101107_j5952824672720_1_alg».proof.Proof.LibDenseHost
import proofs.«101107_j5952824672720_1_alg».proof.Proof.Rows

-- the later stages are deeply nested terms of the earlier ones
set_option maxRecDepth 65536

noncomputable section

namespace Cert.ReferenceIdeal.StageRows

open Cert.ReferenceIdeal Cert.ReferenceIdeal.Read Idealize.ShloMosaic Idealize.ShloMosaic.ValueIdx Cert.LibDense Cert.LibDenseHost

/-! ## The host matrix products, per dimension record -/

theorem dg_S200000x128_S128x128 {φ₁ φ₂ : FTy} (l : FVec Ideal S200000x128 φ₁) (r : FVec Ideal S128x128 φ₂) (a : Fin 200000) (b : Fin 128) :
    Host.dotGeneral dot_S200000x128_S128x128_S200000x128_1_0_0_1_n_n none l r (ix2 a b) = dense (fun k => l (ix2 a k)) r b :=
  dotGeneral_plain dot_S200000x128_S128x128_S200000x128_1_0_0_1_n_n none rfl rfl (fun j q => lhs_main_v0_0 j q) (fun j q => lhs_main_v0_1 j q)
    (fun j q => rhs_main_v0_0 j q) (fun j q => rhs_main_v0_1 j q) l r a b

theorem dg_S200000x6_S6x8 {φ₁ φ₂ : FTy} (l : FVec Ideal S200000x6 φ₁) (r : FVec Ideal S6x8 φ₂) (a : Fin 200000) (b : Fin 8) :
    Host.dotGeneral dot_S200000x6_S6x8_S200000x8_1_0_0_1_n_n none l r (ix2 a b) = dense (fun k => l (ix2 a k)) r b :=
  dotGeneral_plain dot_S200000x6_S6x8_S200000x8_1_0_0_1_n_n none rfl rfl (fun j q => lhs_main_v10_0 j q) (fun j q => lhs_main_v10_1 j q)
    (fun j q => rhs_main_v10_0 j q) (fun j q => rhs_main_v10_1 j q) l r a b

theorem dg_S200000x8_S8x128 {φ₁ φ₂ : FTy} (l : FVec Ideal S200000x8 φ₁) (r : FVec Ideal S8x128 φ₂) (a : Fin 200000) (b : Fin 128) :
    Host.dotGeneral dot_S200000x8_S8x128_S200000x128_1_0_0_1_n_n none l r (ix2 a b) = dense (fun k => l (ix2 a k)) r b :=
  dotGeneral_plain dot_S200000x8_S8x128_S200000x128_1_0_0_1_n_n none rfl rfl (fun j q => lhs_main_v11_0 j q) (fun j q => lhs_main_v11_1 j q)
    (fun j q => rhs_main_v11_0 j q) (fun j q => rhs_main_v11_1 j q) l r a b

theorem dg_S200000x128_S128x64 {φ₁ φ₂ : FTy} (l : FVec Ideal S200000x128 φ₁) (r : FVec Ideal S128x64 φ₂) (a : Fin 200000) (b : Fin 64) :
    Host.dotGeneral dot_S200000x128_S128x64_S200000x64_1_0_0_1_n_n none l r (ix2 a b) = dense (fun k => l (ix2 a k)) r b :=
  dotGeneral_plain dot_S200000x128_S128x64_S200000x64_1_0_0_1_n_n none rfl rfl (fun j q => lhs_main_v13_0 j q) (fun j q => lhs_main_v13_1 j q)
    (fun j q => rhs_main_v13_0 j q) (fun j q => rhs_main_v13_1 j q) l r a b

theorem dg_S2000000x42_S42x8 {φ₁ φ₂ : FTy} (l : FVec Ideal S2000000x42 φ₁) (r : FVec Ideal S42x8 φ₂) (a : Fin 2000000) (b : Fin 8) :
    Host.dotGeneral dot_S2000000x42_S42x8_S2000000x8_1_0_0_1_n_n none l r (ix2 a b) = dense (fun k => l (ix2 a k)) r b :=
  dotGeneral_plain dot_S2000000x42_S42x8_S2000000x8_1_0_0_1_n_n none rfl rfl (fun j q => lhs_main_v15_0 j q) (fun j q => lhs_main_v15_1 j q)
    (fun j q => rhs_main_v15_0 j q) (fun j q => rhs_main_v15_1 j q) l r a b

theorem dg_S2000000x8_S8x64 {φ₁ φ₂ : FTy} (l : FVec Ideal S2000000x8 φ₁) (r : FVec Ideal S8x64 φ₂) (a : Fin 2000000) (b : Fin 64) :
    Host.dotGeneral dot_S2000000x8_S8x64_S2000000x64_1_0_0_1_n_n none l r (ix2 a b) = dense (fun k => l (ix2 a k)) r b :=
  dotGeneral_plain dot_S2000000x8_S8x64_S2000000x64_1_0_0_1_n_n none rfl rfl (fun j q => lhs_main_v16_0 j q) (fun j q => lhs_main_v16_1 j q)
    (fun j q => rhs_main_v16_0 j q) (fun j q => rhs_main_v16_1 j q) l r a b

theorem dg_S200000x64_S64x128 {φ₁ φ₂ : FTy} (l : FVec Ideal S200000x64 φ₁) (r : FVec Ideal S64x128 φ₂) (a : Fin 200000) (b : Fin 128) :
    Host.dotGeneral dot_S200000x64_S64x128_S200000x128_1_0_0_1_n_n none l r (ix2 a b) = dense (fun k => l (ix2 a k)) r b :=
  dotGeneral_plain dot_S200000x64_S64x128_S200000x128_1_0_0_1_n_n none rfl rfl (fun j q => lhs_main_v28_0 j q) (fun j q => lhs_main_v28_1 j q)
    (fun j q => rhs_main_v28_0 j q) (fun j q => rhs_main_v28_1 j q) l r a b

/-! ## SiLU: each call's quotient form is SiLU of its argument -/

theorem silu_call0 (x0 : (⟨S200000x128, .f32⟩ : BufTy).Contents (Elt Ideal)) (x12 : (⟨S128x128, .f32⟩ : BufTy).Contents (Elt Ideal)) (x13 : (⟨S128, .f32⟩ : BufTy).Contents (Elt Ideal)) (i : S200000x128.Idx) :
    val_main_v4 (F := Ideal) x0 x12 x13 i = Rows.silu (val_main_v3 (F := Ideal) x0 x12 x13 i) := by
  rw [val_main_v4_apply, val_main_call0_v5_apply, val_main_call0_v4_apply, val_main_call0_cst_0_apply, val_main_call0_v3_apply,
    val_main_call0_v2_apply, val_main_call0_cst_apply, val_main_call0_v1_apply, val_main_call0_v0_apply]
  generalize val_main_v3 (F := Ideal) x0 x12 x13 i = z
  exact Rows.silu_quotient z

theorem silu_call1 (x0 : (⟨S200000x128, .f32⟩ : BufTy).Contents (Elt Ideal)) (x10 : (⟨S128x128, .f32⟩ : BufTy).Contents (Elt Ideal)) (x11 : (⟨S128, .f32⟩ : BufTy).Contents (Elt Ideal)) (i : S200000x128.Idx) :
    val_main_v9 (F := Ideal) x0 x10 x11 i = Rows.silu (val_main_v8 (F := Ideal) x0 x10 x11 i) := by
  rw [val_main_v9_apply, val_main_call1_v5_apply, val_main_call1_v4_apply, val_main_call1_cst_0_apply, val_main_call1_v3_apply,
    val_main_call1_v2_apply, val_main_call1_cst_apply, val_main_call1_v1_apply, val_main_call1_v0_apply]
  generalize val_main_v8 (F := Ideal) x0 x10 x11 i = z
  exact Rows.silu_quotient z

theorem silu_call2 (x0 : (⟨S200000x128, .f32⟩ : BufTy).Contents (Elt Ideal)) (x2 : (⟨S200000x6, .f32⟩ : BufTy).Contents (Elt Ideal)) (x6 : (⟨S6x8, .f32⟩ : BufTy).Contents (Elt Ideal)) (x7 : (⟨S8x128, .f32⟩ : BufTy).Contents (Elt Ideal)) (x10 : (⟨S128x128, .f32⟩ : BufTy).Contents (Elt Ideal)) (x11 : (⟨S128, .f32⟩ : BufTy).Contents (Elt Ideal)) (x14 : (⟨S128x64, .f32⟩ : BufTy).Contents (Elt Ideal)) (i : S200000x64.Idx) :
    val_main_v14 (F := Ideal) x0 x2 x6 x7 x10 x11 x14 i = Rows.silu (val_main_v13 (F := Ideal) x0 x2 x6 x7 x10 x11 x14 i) := by
  rw [val_main_v14_apply, val_main_call2_v5_apply, val_main_call2_v4_apply, val_main_call2_cst_0_apply, val_main_call2_v3_apply,
    val_main_call2_v2_apply, val_main_call2_cst_apply, val_main_call2_v1_apply, val_main_call2_v0_apply]
  generalize val_main_v13 (F := Ideal) x0 x2 x6 x7 x10 x11 x14 i = z
  exact Rows.silu_quotient z

theorem silu_call3 (x0 : (⟨S200000x128, .f32⟩ : BufTy).Contents (Elt Ideal)) (x2 : (⟨S200000x6, .f32⟩ : BufTy).Contents (Elt Ideal)) (x3 : (⟨S2000000x42, .f32⟩ : BufTy).Contents (Elt Ideal)) (x4 : (⟨S2000000, .i32⟩ : BufTy).Contents (Elt Ideal)) (x5 : (⟨S2000000, .i32⟩ : BufTy).Contents (Elt Ideal)) (x6 : (⟨S6x8, .f32⟩ : BufTy).Contents (Elt Ideal)) (x7 : (⟨S8x128, .f32⟩ : BufTy).Contents (Elt Ideal)) (x8 : (⟨S42x8, .f32⟩ : BufTy).Contents (Elt Ideal)) (x9 : (⟨S8x64, .f32⟩ : BufTy).Contents (Elt Ideal)) (x10 : (⟨S128x128, .f32⟩ : BufTy).Contents (Elt Ideal)) (x11 : (⟨S128, .f32⟩ : BufTy).Contents (Elt Ideal)) (x14 : (⟨S128x64, .f32⟩ : BufTy).Contents (Elt Ideal)) (x15 : (⟨S64x128, .f32⟩ : BufTy).Contents (Elt Ideal)) (i : S200000x128.Idx) :
    val_main_v29 (F := Ideal) x0 x2 x3 x4 x5 x6 x7 x8 x9 x10 x11 x14 x15 i = Rows.silu (val_main_v28 (F := Ideal) x0 x2 x3 x4 x5 x6 x7 x8 x9 x10 x11 x14 x15 i) := by
  rw [val_main_v29_apply, val_main_call3_v5_apply, val_main_call3_v4_apply, val_main_call3_cst_0_apply, val_main_call3_v3_apply,
    val_main_call3_v2_apply, val_main_call3_cst_apply, val_main_call3_v1_apply, val_main_call3_v0_apply]
  generalize val_main_v28 (F := Ideal) x0 x2 x3 x4 x5 x6 x7 x8 x9 x10 x11 x14 x15 i = z
  exact Rows.silu_quotient z

theorem silu_call4 (x0 : (⟨S200000x128, .f32⟩ : BufTy).Contents (Elt Ideal)) (x2 : (⟨S200000x6, .f32⟩ : BufTy).Contents (Elt Ideal)) (x3 : (⟨S2000000x42, .f32⟩ : BufTy).Contents (Elt Ideal)) (x4 : (⟨S2000000, .i32⟩ : BufTy).Contents (Elt Ideal)) (x5 : (⟨S2000000, .i32⟩ : BufTy).Contents (Elt Ideal)) (x6 : (⟨S6x8, .f32⟩ : BufTy).Contents (Elt Ideal)) (x7 : (⟨S8x128, .f32⟩ : BufTy).Contents (Elt Ideal)) (x8 : (⟨S42x8, .f32⟩ : BufTy).Contents (Elt Ideal)) (x9 : (⟨S8x64, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x64, .f32⟩ : BufTy).Contents (Elt Ideal)) (x15 : (⟨S64x128, .f32⟩ : BufTy).Contents (Elt Ideal)) (x16 : (⟨S128x128, .f32⟩ : BufTy).Contents (Elt Ideal)) (x17 : (⟨S128, .f32⟩ : BufTy).Contents (Elt Ideal)) (i : S200000x128.Idx) :
    val_main_v35 (F := Ideal) x0 x2 x3 x4 x5 x6 x7 x8 x9 x10 x11 x12 x13 x14 x15 x16 x17 i = Rows.silu (val_main_v34 (F := Ideal) x0 x2 x3 x4 x5 x6 x7 x8 x9 x10 x11 x12 x13 x14 x15 x16 x17 i) := by
  rw [val_main_v35_apply, val_main_call4_v5_apply, val_main_call4_v4_apply, val_main_call4_cst_0_apply, val_main_call4_v3_apply,
    val_main_call4_v2_apply, val_main_call4_cst_apply, val_main_call4_v1_apply, val_main_call4_v0_apply]
  generalize val_main_v34 (F := Ideal) x0 x2 x3 x4 x5 x6 x7 x8 x9 x10 x11 x12 x13 x14 x15 x16 x17 i = z
  exact Rows.silu_quotient z

theorem silu_call5 (x0 : (⟨S200000x128, .f32⟩ : BufTy).Contents (Elt Ideal)) (x2 : (⟨S200000x6, .f32⟩ : BufTy).Contents (Elt Ideal)) (x3 : (⟨S2000000x42, .f32⟩ : BufTy).Contents (Elt Ideal)) (x4 : (⟨S2000000, .i32⟩ : BufTy).Contents (Elt Ideal)) (x5 : (⟨S2000000, .i32⟩ : BufTy).Contents (Elt Ideal)) (x6 : (⟨S6x8, .f32⟩ : BufTy).Contents (Elt Ideal)) (x7 : (⟨S8x128, .f32⟩ : BufTy).Contents (Elt Ideal)) (x8 : (⟨S42x8, .f32⟩ : BufTy).Contents (Elt Ideal)) (x9 : (⟨S8x64, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x64, .f32⟩ : BufTy).Contents (Elt Ideal)) (x15 : (⟨S64x128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (i : S200000x128.Idx) :
    val_main_v41 (F := Ideal) x0 x2 x3 x4 x5 x6 x7 x8 x9 x10 x11 x12 x13 x14 x15 x16 x17 x18 x19 i = Rows.silu (val_main_v40 (F := Ideal) x0 x2 x3 x4 x5 x6 x7 x8 x9 x10 x11 x12 x13 x14 x15 x16 x17 x18 x19 i) := by
  rw [val_main_v41_apply, val_main_call5_v5_apply, val_main_call5_v4_apply, val_main_call5_cst_0_apply, val_main_call5_v3_apply,
    val_main_call5_v2_apply, val_main_call5_cst_apply, val_main_call5_v1_apply, val_main_call5_v0_apply]
  generalize val_main_v40 (F := Ideal) x0 x2 x3 x4 x5 x6 x7 x8 x9 x10 x11 x12 x13 x14 x15 x16 x17 x18 x19 i = z
  exact Rows.silu_quotient z

/-! ## A bias broadcast over the rows reads the bias at the column -/

theorem bias_v2 (x13 : (⟨S128, .f32⟩ : BufTy).Contents (Elt Ideal)) (r : Fin 200000) (j : Fin 128) : val_main_v2 (F := Ideal) x13 (ix2 r j) = x13 (ix1 j) := by
  rw [val_main_v2_apply, val_main_v1_apply]
  exact congrArg x13 (funext fun d => Fin.ext (by match d with | ⟨0, _⟩ => rfl))

theorem bias_v7 (x11 : (⟨S128, .f32⟩ : BufTy).Contents (Elt Ideal)) (r : Fin 200000) (j : Fin 128) : val_main_v7 (F := Ideal) x11 (ix2 r j) = x11 (ix1 j) := by
  rw [val_main_v7_apply, val_main_v6_apply]
  exact congrArg x11 (funext fun d => Fin.ext (by match d with | ⟨0, _⟩ => rfl))

theorem bias_v33 (x17 : (⟨S128, .f32⟩ : BufTy).Contents (Elt Ideal)) (r : Fin 200000) (j : Fin 128) : val_main_v33 (F := Ideal) x17 (ix2 r j) = x17 (ix1 j) := by
  rw [val_main_v33_apply, val_main_v32_apply]
  exact congrArg x17 (funext fun d => Fin.ext (by match d with | ⟨0, _⟩ => rfl))

theorem bias_v39 (x19 : (⟨S128, .f32⟩ : BufTy).Contents (Elt Ideal)) (r : Fin 200000) (j : Fin 128) : val_main_v39 (F := Ideal) x19 (ix2 r j) = x19 (ix1 j) := by
  rw [val_main_v39_apply, val_main_v38_apply]
  exact congrArg x19 (funext fun d => Fin.ext (by match d with | ⟨0, _⟩ => rfl))

/-! ## The stages -/

/-- x·W_ji + b_ji at (r, j). -/
theorem v3_at (x0 : (⟨S200000x128, .f32⟩ : BufTy).Contents (Elt Ideal)) (x12 : (⟨S128x128, .f32⟩ : BufTy).Contents (Elt Ideal)) (x13 : (⟨S128, .f32⟩ : BufTy).Contents (Elt Ideal)) (r : Fin 200000) (j : Fin 128) :
    val_main_v3 (F := Ideal) x0 x12 x13 (ix2 r j) = dense (fun k => x0 (ix2 r k)) x12 j + x13 (ix1 j) := by
  rw [val_main_v3_apply, bias_v2]
  exact congrArg (· + x13 (ix1 j)) (dg_S200000x128_S128x128 x0 x12 r j)

/-- x_ji at (r, j). -/
theorem v4_at (x0 : (⟨S200000x128, .f32⟩ : BufTy).Contents (Elt Ideal)) (x12 : (⟨S128x128, .f32⟩ : BufTy).Contents (Elt Ideal)) (x13 : (⟨S128, .f32⟩ : BufTy).Contents (Elt Ideal)) (r : Fin 200000) (j : Fin 128) :
    val_main_v4 (F := Ideal) x0 x12 x13 (ix2 r j) = Rows.act (fun k => x0 (ix2 r k)) x12 (fun q => x13 (ix1 q)) j :=
  (silu_call0 x0 x12 x13 (ix2 r j)).trans (congrArg Rows.silu (v3_at x0 x12 x13 r j))

/-- x·W_kj + b_kj at (r, j). -/
theorem v8_at (x0 : (⟨S200000x128, .f32⟩ : BufTy).Contents (Elt Ideal)) (x10 : (⟨S128x128, .f32⟩ : BufTy).Contents (Elt Ideal)) (x11 : (⟨S128, .f32⟩ : BufTy).Contents (Elt Ideal)) (r : Fin 200000) (j : Fin 128) :
    val_main_v8 (F := Ideal) x0 x10 x11 (ix2 r j) = dense (fun k => x0 (ix2 r k)) x10 j + x11 (ix1 j) := by
  rw [val_main_v8_apply, bias_v7]
  exact congrArg (· + x11 (ix1 j)) (dg_S200000x128_S128x128 x0 x10 r j)

theorem v9_at (x0 : (⟨S200000x128, .f32⟩ : BufTy).Contents (Elt Ideal)) (x10 : (⟨S128x128, .f32⟩ : BufTy).Contents (Elt Ideal)) (x11 : (⟨S128, .f32⟩ : BufTy).Contents (Elt Ideal)) (r : Fin 200000) (j : Fin 128) :
    val_main_v9 (F := Ideal) x0 x10 x11 (ix2 r j) = Rows.act (fun k => x0 (ix2 r k)) x10 (fun q => x11 (ix1 q)) j :=
  (silu_call1 x0 x10 x11 (ix2 r j)).trans (congrArg Rows.silu (v8_at x0 x10 x11 r j))

/-- The radial-basis embedding (rbf·W_rbf1)·W_rbf2 at (r, j). -/
theorem v11_at (x2 : (⟨S200000x6, .f32⟩ : BufTy).Contents (Elt Ideal)) (x6 : (⟨S6x8, .f32⟩ : BufTy).Contents (Elt Ideal)) (x7 : (⟨S8x128, .f32⟩ : BufTy).Contents (Elt Ideal)) (r : Fin 200000) (j : Fin 128) :
    val_main_v11 (F := Ideal) x2 x6 x7 (ix2 r j) = Rows.twice (fun k => x2 (ix2 r k)) x6 x7 j :=
  (dg_S200000x8_S8x128 (val_main_v10 (F := Ideal) x2 x6) x7 r j).trans
    (congrArg (fun f => dense f x7 j) (funext fun a => dg_S200000x6_S6x8 x2 x6 r a))

theorem v12_at (x0 : (⟨S200000x128, .f32⟩ : BufTy).Contents (Elt Ideal)) (x2 : (⟨S200000x6, .f32⟩ : BufTy).Contents (Elt Ideal)) (x6 : (⟨S6x8, .f32⟩ : BufTy).Contents (Elt Ideal)) (x7 : (⟨S8x128, .f32⟩ : BufTy).Contents (Elt Ideal)) (x10 : (⟨S128x128, .f32⟩ : BufTy).Contents (Elt Ideal)) (x11 : (⟨S128, .f32⟩ : BufTy).Contents (Elt Ideal)) (r : Fin 200000) (k : Fin 128) :
    val_main_v12 (F := Ideal) x0 x2 x6 x7 x10 x11 (ix2 r k) = Rows.act (fun k => x0 (ix2 r k)) x10 (fun q => x11 (ix1 q)) k * Rows.twice (fun k => x2 (ix2 r k)) x6 x7 k := by
  rw [val_main_v12_apply]
  exact congrArg₂ (· * ·) (v9_at x0 x10 x11 r k) (v11_at x2 x6 x7 r k)

/-- The down-projected message source at (r, j). -/
theorem v14_at (x0 : (⟨S200000x128, .f32⟩ : BufTy).Contents (Elt Ideal)) (x2 : (⟨S200000x6, .f32⟩ : BufTy).Contents (Elt Ideal)) (x6 : (⟨S6x8, .f32⟩ : BufTy).Contents (Elt Ideal)) (x7 : (⟨S8x128, .f32⟩ : BufTy).Contents (Elt Ideal)) (x10 : (⟨S128x128, .f32⟩ : BufTy).Contents (Elt Ideal)) (x11 : (⟨S128, .f32⟩ : BufTy).Contents (Elt Ideal)) (x14 : (⟨S128x64, .f32⟩ : BufTy).Contents (Elt Ideal)) (r : Fin 200000) (j : Fin 64) :
    val_main_v14 (F := Ideal) x0 x2 x6 x7 x10 x11 x14 (ix2 r j) = Rows.down (fun k => x0 (ix2 r k)) (fun k => x2 (ix2 r k)) x10 (fun q => x11 (ix1 q)) x6 x7 x14 j :=
  (silu_call2 x0 x2 x6 x7 x10 x11 x14 (ix2 r j)).trans (congrArg Rows.silu
    ((dg_S200000x128_S128x64 (val_main_v12 (F := Ideal) x0 x2 x6 x7 x10 x11) x14 r j).trans
      (congrArg (fun f => dense f x14 j) (funext fun k => v12_at x0 x2 x6 x7 x10 x11 r k))))

/-- The spherical-basis embedding (sbf·W_sbf1)·W_sbf2 at (r, j). -/
theorem v16_at (x3 : (⟨S2000000x42, .f32⟩ : BufTy).Contents (Elt Ideal)) (x8 : (⟨S42x8, .f32⟩ : BufTy).Contents (Elt Ideal)) (x9 : (⟨S8x64, .f32⟩ : BufTy).Contents (Elt Ideal)) (r : Fin 2000000) (j : Fin 64) :
    val_main_v16 (F := Ideal) x3 x8 x9 (ix2 r j) = Rows.twice (fun k => x3 (ix2 r k)) x8 x9 j :=
  (dg_S2000000x8_S8x64 (val_main_v15 (F := Ideal) x3 x8) x9 r j).trans
    (congrArg (fun f => dense f x9 j) (funext fun a => dg_S2000000x42_S42x8 x3 x8 r a))

/-- The message at (r, j): the gathered entry times the spherical-basis embedding. -/
theorem v24_at (x0 : (⟨S200000x128, .f32⟩ : BufTy).Contents (Elt Ideal)) (x2 : (⟨S200000x6, .f32⟩ : BufTy).Contents (Elt Ideal)) (x3 : (⟨S2000000x42, .f32⟩ : BufTy).Contents (Elt Ideal)) (x4 : (⟨S2000000, .i32⟩ : BufTy).Contents (Elt Ideal)) (x6 : (⟨S6x8, .f32⟩ : BufTy).Contents (Elt Ideal)) (x7 : (⟨S8x128, .f32⟩ : BufTy).Contents (Elt Ideal)) (x8 : (⟨S42x8, .f32⟩ : BufTy).Contents (Elt Ideal)) (x9 : (⟨S8x64, .f32⟩ : BufTy).Contents (Elt Ideal)) (x10 : (⟨S128x128, .f32⟩ : BufTy).Contents (Elt Ideal)) (x11 : (⟨S128, .f32⟩ : BufTy).Contents (Elt Ideal)) (x14 : (⟨S128x64, .f32⟩ : BufTy).Contents (Elt Ideal)) (r : Fin 2000000) (j : Fin 64) :
    val_main_v24 (F := Ideal) x0 x2 x3 x4 x6 x7 x8 x9 x10 x11 x14 (ix2 r j) = val_main_v23 (F := Ideal) x0 x2 x4 x6 x7 x10 x11 x14 (ix2 r j) * Rows.twice (fun k => x3 (ix2 r k)) x8 x9 j := by
  rw [val_main_v24_apply]
  exact congrArg (val_main_v23 (F := Ideal) x0 x2 x4 x6 x7 x10 x11 x14 (ix2 r j) * ·) (v16_at x3 x8 x9 r j)

/-- x_ji + silu (agg·W_up) at (r, k). -/
theorem v30_at (x0 : (⟨S200000x128, .f32⟩ : BufTy).Contents (Elt Ideal)) (x2 : (⟨S200000x6, .f32⟩ : BufTy).Contents (Elt Ideal)) (x3 : (⟨S2000000x42, .f32⟩ : BufTy).Contents (Elt Ideal)) (x4 : (⟨S2000000, .i32⟩ : BufTy).Contents (Elt Ideal)) (x5 : (⟨S2000000, .i32⟩ : BufTy).Contents (Elt Ideal)) (x6 : (⟨S6x8, .f32⟩ : BufTy).Contents (Elt Ideal)) (x7 : (⟨S8x128, .f32⟩ : BufTy).Contents (Elt Ideal)) (x8 : (⟨S42x8, .f32⟩ : BufTy).Contents (Elt Ideal)) (x9 : (⟨S8x64, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x64, .f32⟩ : BufTy).Contents (Elt Ideal)) (x15 : (⟨S64x128, .f32⟩ : BufTy).Contents (Elt Ideal)) (r : Fin 200000) (k : Fin 128) :
    val_main_v30 (F := Ideal) x0 x2 x3 x4 x5 x6 x7 x8 x9 x10 x11 x12 x13 x14 x15 (ix2 r k)
      = val_main_v4 (F := Ideal) x0 x12 x13 (ix2 r k) + Rows.silu (dense (fun k' => val_main_v27 (F := Ideal) x0 x2 x3 x4 x5 x6 x7 x8 x9 x10 x11 x14 (ix2 r k')) x15 k) := by
  rw [val_main_v30_apply]
  exact congrArg (val_main_v4 (F := Ideal) x0 x12 x13 (ix2 r k) + ·)
    ((silu_call3 x0 x2 x3 x4 x5 x6 x7 x8 x9 x10 x11 x14 x15 (ix2 r k)).trans (congrArg Rows.silu (dg_S200000x64_S64x128 (val_main_v27 (F := Ideal) x0 x2 x3 x4 x5 x6 x7 x8 x9 x10 x11 x14) x15 r k)))

/-- silu ((x_ji + u)·W_lin + b_lin) + x at (r, k). -/
theorem v36_at (x0 : (⟨S200000x128, .f32⟩ : BufTy).Contents (Elt Ideal)) (x2 : (⟨S200000x6, .f32⟩ : BufTy).Contents (Elt Ideal)) (x3 : (⟨S2000000x42, .f32⟩ : BufTy).Contents (Elt Ideal)) (x4 : (⟨S2000000, .i32⟩ : BufTy).Contents (Elt Ideal)) (x5 : (⟨S2000000, .i32⟩ : BufTy).Contents (Elt Ideal)) (x6 : (⟨S6x8, .f32⟩ : BufTy).Contents (Elt Ideal)) (x7 : (⟨S8x128, .f32⟩ : BufTy).Contents (Elt Ideal)) (x8 : (⟨S42x8, .f32⟩ : BufTy).Contents (Elt Ideal)) (x9 : (⟨S8x64, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x64, .f32⟩ : BufTy).Contents (Elt Ideal)) (x15 : (⟨S64x128, .f32⟩ : BufTy).Contents (Elt Ideal)) (x16 : (⟨S128x128, .f32⟩ : BufTy).Contents (Elt Ideal)) (x17 : (⟨S128, .f32⟩ : BufTy).Contents (Elt Ideal)) (r : Fin 200000) (k : Fin 128) :
    val_main_v36 (F := Ideal) x0 x2 x3 x4 x5 x6 x7 x8 x9 x10 x11 x12 x13 x14 x15 x16 x17 (ix2 r k)
      = Rows.act (fun k' => val_main_v4 (F := Ideal) x0 x12 x13 (ix2 r k') + Rows.silu (dense (fun k'' => val_main_v27 (F := Ideal) x0 x2 x3 x4 x5 x6 x7 x8 x9 x10 x11 x14 (ix2 r k'')) x15 k')) x16 (fun q => x17 (ix1 q)) k
        + x0 (ix2 r k) := by
  rw [val_main_v36_apply]
  refine congrArg (· + x0 (ix2 r k)) ((silu_call4 x0 x2 x3 x4 x5 x6 x7 x8 x9 x10 x11 x12 x13 x14 x15 x16 x17 (ix2 r k)).trans (congrArg Rows.silu ?_))
  rw [val_main_v34_apply, bias_v33]
  exact congrArg (· + x17 (ix1 k)) ((dg_S200000x128_S128x128 (val_main_v30 (F := Ideal) x0 x2 x3 x4 x5 x6 x7 x8 x9 x10 x11 x12 x13 x14 x15) x16 r k).trans
    (congrArg (fun f => dense f x16 k) (funext fun k' => v30_at x0 x2 x3 x4 x5 x6 x7 x8 x9 x10 x11 x12 x13 x14 x15 r k')))

/-- The output before normalisation at (r, j). -/
theorem v41_at (x0 : (⟨S200000x128, .f32⟩ : BufTy).Contents (Elt Ideal)) (x2 : (⟨S200000x6, .f32⟩ : BufTy).Contents (Elt Ideal)) (x3 : (⟨S2000000x42, .f32⟩ : BufTy).Contents (Elt Ideal)) (x4 : (⟨S2000000, .i32⟩ : BufTy).Contents (Elt Ideal)) (x5 : (⟨S2000000, .i32⟩ : BufTy).Contents (Elt Ideal)) (x6 : (⟨S6x8, .f32⟩ : BufTy).Contents (Elt Ideal)) (x7 : (⟨S8x128, .f32⟩ : BufTy).Contents (Elt Ideal)) (x8 : (⟨S42x8, .f32⟩ : BufTy).Contents (Elt Ideal)) (x9 : (⟨S8x64, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x64, .f32⟩ : BufTy).Contents (Elt Ideal)) (x15 : (⟨S64x128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (r : Fin 200000) (j : Fin 128) :
    val_main_v41 (F := Ideal) x0 x2 x3 x4 x5 x6 x7 x8 x9 x10 x11 x12 x13 x14 x15 x16 x17 x18 x19 (ix2 r j)
      = Rows.outRow (fun k => val_main_v27 (F := Ideal) x0 x2 x3 x4 x5 x6 x7 x8 x9 x10 x11 x14 (ix2 r k)) (fun k => val_main_v4 (F := Ideal) x0 x12 x13 (ix2 r k)) (fun k => x0 (ix2 r k)) x15 x16 (fun q => x17 (ix1 q)) x18 (fun q => x19 (ix1 q)) j := by
  refine (silu_call5 x0 x2 x3 x4 x5 x6 x7 x8 x9 x10 x11 x12 x13 x14 x15 x16 x17 x18 x19 (ix2 r j)).trans (congrArg Rows.silu ?_)
  rw [val_main_v40_apply, bias_v39]
  exact congrArg (· + x19 (ix1 j)) ((dg_S200000x128_S128x128 (val_main_v36 (F := Ideal) x0 x2 x3 x4 x5 x6 x7 x8 x9 x10 x11 x12 x13 x14 x15 x16 x17) x18 r j).trans
    (congrArg (fun f => dense f x18 j) (funext fun k => v36_at x0 x2 x3 x4 x5 x6 x7 x8 x9 x10 x11 x12 x13 x14 x15 x16 x17 r k)))

end Cert.ReferenceIdeal.StageRows

end
-- ==== Proof.LibWrites.lean ====
/-
  Host operations that write only buffers numbered from `n` on.

  A straight line of host operations each of which writes one result buffer of its own, all of them
  numbered `n` or higher among the TensorCore references, leaves every reference numbered below `n` as
  it found it. With the program's arguments numbered first, this is "no host operation writes an
  argument".
-/
import Idealize.ShloMosaic.Lib.StableHlo.Run

noncomputable section

namespace Idealize.ShloMosaic.StableHlo

open Idealize.ShloMosaic.TcCoe

variable {τ : Topo} {sig : RefSig} {Val : EltTy → Type}

/-- Every buffer the operation writes is a TensorCore reference whose index is at least `n`. -/
def WritesFrom (n : ℕ) (op : HloOp τ sig Val) : Prop :=
  ∀ b ∈ op.writes, ∃ y : Ref sig .tc, b = Proc.devRef .tc y ∧ n ≤ y.idx.val

/-- A line of such operations leaves every reference numbered below `n` as it found it. -/
theorem after_below (n : ℕ) (ops : List (HloOp τ sig Val)) (W : Valuation τ sig Val)
    (h : ops.Forall (WritesFrom n)) (r : Ref sig .tc) (hr : r.idx.val < n) :
    after ops W (Proc.devRef .tc r) = W (Proc.devRef .tc r) :=
  after_of_forall_not_mem ops W fun op hop hb => by
    obtain ⟨y, e, hy⟩ := (List.forall_iff_forall_mem.mp h) op hop _ hb
    obtain rfl : r = y := Proc.devRef_injective _ e
    omega

/-- Any stretch cut from the front or the back of such a line is such a line. -/
theorem WritesFrom.take (n k : ℕ) (ops : List (HloOp τ sig Val)) (h : ops.Forall (WritesFrom n)) :
    (ops.take k).Forall (WritesFrom n) :=
  List.forall_iff_forall_mem.mpr fun op hop => (List.forall_iff_forall_mem.mp h) op (List.mem_of_mem_take hop)

theorem WritesFrom.drop (n k : ℕ) (ops : List (HloOp τ sig Val)) (h : ops.Forall (WritesFrom n)) :
    (ops.drop k).Forall (WritesFrom n) :=
  List.forall_iff_forall_mem.mpr fun op hop => (List.forall_iff_forall_mem.mp h) op (List.mem_of_mem_drop hop)

/-- One operation at a time over a literal line: the buffer written is the operation's own result. -/
macro "writes_own" : tactic =>
  `(tactic| (simp only [List.Forall]; repeat' constructor
             all_goals exact fun b hb => ⟨_, Finset.mem_singleton.mp hb, by decide⟩))

/-- Two lines one after the other. -/
theorem after_two : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_two l₁ l₂]

/-- A line run in two stretches. -/
theorem after_take_drop (k : ℕ) (ops : List (HloOp τ sig Val)) (W : Valuation τ sig Val) :
    after ops W = after (ops.drop k) (after (ops.take k) W) := by
  rw [← after_two, List.take_append_drop]

end Idealize.ShloMosaic.StableHlo

end
-- ==== Proof.Bridge.lean ====
/-
  The kernel's fold, stage by stage, is the reference's chain of stages.

  The buffers the kernel leaves at each boundary are read off the fold: a host stretch leaves every buffer it does not
  write as it found it, a region leaves every buffer that is not one of its arrays, and its input arrays, as it found
  them; so each operand of each stretch walks back to the launch memory or to an earlier stage. With the regions'
  output arrays known as whole-array row functions of what the region finds, the seven stages are, in order:
  x_ji and the down-projected source (the first region) — the reference's stages row by row; the row gather — the same
  host operations of equal operands; the messages (the second region) — the reference's product with its two factors
  exchanged, and multiplication of extended reals commutes; the scatter-add — the same host operation of equal
  operands; the output before normalisation (the third region) — row by row again; the normalisation — the same host
  operations of equal operands. No step needs the inputs to be finite.
-/
import proofs.«101107_j5952824672720_1_alg».proof.Proof.KArrays
import proofs.«101107_j5952824672720_1_alg».proof.Proof.RRows
import proofs.«101107_j5952824672720_1_alg».proof.Proof.LibWrites
import Idealize.ShloMosaic.Lib.ValueLayout

set_option maxRecDepth 65536

noncomputable section

namespace Cert.KernelIdeal.Bridge

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## What the stretches leave alone -/

/-- Each host stretch writes only result buffers of its own, all numbered after the buffers it reads from earlier
    stretches. -/
theorem from0 : (hostOps0 : List (HloOp τ sig (Elt Ideal))).Forall (WritesFrom 22) := by writes_own
theorem from1 : (hostOps1 : List (HloOp τ sig (Elt Ideal))).Forall (WritesFrom 26) := by writes_own
theorem from2 : (hostOps2 : List (HloOp τ sig (Elt Ideal))).Forall (WritesFrom 36) := by writes_own
theorem from3 : (hostOps3 : List (HloOp τ sig (Elt Ideal))).Forall (WritesFrom 43) := by writes_own

/-! Each operand walked back through the fold to the launch memory. -/

theorem keep1_arg0 (c : Dev nD) : W1 m ρ c (Proc.devRef .tc main_arg0) = m ((c : Thread nD τ).loc main_arg0) :=
  ((StableHlo.after_below 22 hostOps0 (W0 m ρ c) from0 main_arg0 (by decide)).trans (rfl : W0 m ρ c (Proc.devRef .tc main_arg0) = m ((c : Thread nD τ).loc main_arg0)))

theorem keep1_arg2 (c : Dev nD) : W1 m ρ c (Proc.devRef .tc main_arg2) = m ((c : Thread nD τ).loc main_arg2) :=
  ((StableHlo.after_below 22 hostOps0 (W0 m ρ c) from0 main_arg2 (by decide)).trans (rfl : W0 m ρ c (Proc.devRef .tc main_arg2) = m ((c : Thread nD τ).loc main_arg2)))

theorem keep1_arg12 (c : Dev nD) : W1 m ρ c (Proc.devRef .tc main_arg12) = m ((c : Thread nD τ).loc main_arg12) :=
  ((StableHlo.after_below 22 hostOps0 (W0 m ρ c) from0 main_arg12 (by decide)).trans (rfl : W0 m ρ c (Proc.devRef .tc main_arg12) = m ((c : Thread nD τ).loc main_arg12)))

theorem keep1_arg10 (c : Dev nD) : W1 m ρ c (Proc.devRef .tc main_arg10) = m ((c : Thread nD τ).loc main_arg10) :=
  ((StableHlo.after_below 22 hostOps0 (W0 m ρ c) from0 main_arg10 (by decide)).trans (rfl : W0 m ρ c (Proc.devRef .tc main_arg10) = m ((c : Thread nD τ).loc main_arg10)))

theorem keep1_arg6 (c : Dev nD) : W1 m ρ c (Proc.devRef .tc main_arg6) = m ((c : Thread nD τ).loc main_arg6) :=
  ((StableHlo.after_below 22 hostOps0 (W0 m ρ c) from0 main_arg6 (by decide)).trans (rfl : W0 m ρ c (Proc.devRef .tc main_arg6) = m ((c : Thread nD τ).loc main_arg6)))

theorem keep1_arg7 (c : Dev nD) : W1 m ρ c (Proc.devRef .tc main_arg7) = m ((c : Thread nD τ).loc main_arg7) :=
  ((StableHlo.after_below 22 hostOps0 (W0 m ρ c) from0 main_arg7 (by decide)).trans (rfl : W0 m ρ c (Proc.devRef .tc main_arg7) = m ((c : Thread nD τ).loc main_arg7)))

theorem keep1_arg14 (c : Dev nD) : W1 m ρ c (Proc.devRef .tc main_arg14) = m ((c : Thread nD τ).loc main_arg14) :=
  ((StableHlo.after_below 22 hostOps0 (W0 m ρ c) from0 main_arg14 (by decide)).trans (rfl : W0 m ρ c (Proc.devRef .tc main_arg14) = m ((c : Thread nD τ).loc main_arg14)))

theorem keep2_arg4 (c : Dev nD) : W2 m ρ c (Proc.devRef .tc main_arg4) = m ((c : Thread nD τ).loc main_arg4) :=
  ((W2_of_ne m ρ c main_arg4 (by decide)).trans ((StableHlo.after_below 22 hostOps0 (W0 m ρ c) from0 main_arg4 (by decide)).trans (rfl : W0 m ρ c (Proc.devRef .tc main_arg4) = m ((c : Thread nD τ).loc main_arg4))))

theorem keep3_arg3 (c : Dev nD) : W3 m ρ c (Proc.devRef .tc main_arg3) = m ((c : Thread nD τ).loc main_arg3) :=
  ((StableHlo.after_below 26 hostOps1 (W2 m ρ c) from1 main_arg3 (by decide)).trans ((W2_of_ne m ρ c main_arg3 (by decide)).trans ((StableHlo.after_below 22 hostOps0 (W0 m ρ c) from0 main_arg3 (by decide)).trans (rfl : W0 m ρ c (Proc.devRef .tc main_arg3) = m ((c : Thread nD τ).loc main_arg3)))))

theorem keep3_arg8 (c : Dev nD) : W3 m ρ c (Proc.devRef .tc main_arg8) = m ((c : Thread nD τ).loc main_arg8) :=
  ((StableHlo.after_below 26 hostOps1 (W2 m ρ c) from1 main_arg8 (by decide)).trans ((W2_of_ne m ρ c main_arg8 (by decide)).trans ((StableHlo.after_below 22 hostOps0 (W0 m ρ c) from0 main_arg8 (by decide)).trans (rfl : W0 m ρ c (Proc.devRef .tc main_arg8) = m ((c : Thread nD τ).loc main_arg8)))))

theorem keep3_arg9 (c : Dev nD) : W3 m ρ c (Proc.devRef .tc main_arg9) = m ((c : Thread nD τ).loc main_arg9) :=
  ((StableHlo.after_below 26 hostOps1 (W2 m ρ c) from1 main_arg9 (by decide)).trans ((W2_of_ne m ρ c main_arg9 (by decide)).trans ((StableHlo.after_below 22 hostOps0 (W0 m ρ c) from0 main_arg9 (by decide)).trans (rfl : W0 m ρ c (Proc.devRef .tc main_arg9) = m ((c : Thread nD τ).loc main_arg9)))))

theorem keep4_arg5 (c : Dev nD) : W4 m ρ c (Proc.devRef .tc main_arg5) = m ((c : Thread nD τ).loc main_arg5) :=
  ((W4_of_ne m ρ c main_arg5 (by decide)).trans ((StableHlo.after_below 26 hostOps1 (W2 m ρ c) from1 main_arg5 (by decide)).trans ((W2_of_ne m ρ c main_arg5 (by decide)).trans ((StableHlo.after_below 22 hostOps0 (W0 m ρ c) from0 main_arg5 (by decide)).trans (rfl : W0 m ρ c (Proc.devRef .tc main_arg5) = m ((c : Thread nD τ).loc main_arg5))))))

theorem keep4_arg17 (c : Dev nD) : W4 m ρ c (Proc.devRef .tc main_arg17) = m ((c : Thread nD τ).loc main_arg17) :=
  ((W4_of_ne m ρ c main_arg17 (by decide)).trans ((StableHlo.after_below 26 hostOps1 (W2 m ρ c) from1 main_arg17 (by decide)).trans ((W2_of_ne m ρ c main_arg17 (by decide)).trans ((StableHlo.after_below 22 hostOps0 (W0 m ρ c) from0 main_arg17 (by decide)).trans (rfl : W0 m ρ c (Proc.devRef .tc main_arg17) = m ((c : Thread nD τ).loc main_arg17))))))

theorem keep4_arg19 (c : Dev nD) : W4 m ρ c (Proc.devRef .tc main_arg19) = m ((c : Thread nD τ).loc main_arg19) :=
  ((W4_of_ne m ρ c main_arg19 (by decide)).trans ((StableHlo.after_below 26 hostOps1 (W2 m ρ c) from1 main_arg19 (by decide)).trans ((W2_of_ne m ρ c main_arg19 (by decide)).trans ((StableHlo.after_below 22 hostOps0 (W0 m ρ c) from0 main_arg19 (by decide)).trans (rfl : W0 m ρ c (Proc.devRef .tc main_arg19) = m ((c : Thread nD τ).loc main_arg19))))))

theorem keep5_arg0 (c : Dev nD) : W5 m ρ c (Proc.devRef .tc main_arg0) = m ((c : Thread nD τ).loc main_arg0) :=
  ((StableHlo.after_below 36 hostOps2 (W4 m ρ c) from2 main_arg0 (by decide)).trans ((W4_of_ne m ρ c main_arg0 (by decide)).trans ((StableHlo.after_below 26 hostOps1 (W2 m ρ c) from1 main_arg0 (by decide)).trans (((W2_arr m ρ c 0).trans (((dat0 (V1 m ρ) c).arrAt_in 0 rfl _).trans (A_eq0 (V1 m ρ) c 0))).trans ((StableHlo.after_below 22 hostOps0 (W0 m ρ c) from0 main_arg0 (by decide)).trans (rfl : W0 m ρ c (Proc.devRef .tc main_arg0) = m ((c : Thread nD τ).loc main_arg0)))))))

theorem keep5_arg15 (c : Dev nD) : W5 m ρ c (Proc.devRef .tc main_arg15) = m ((c : Thread nD τ).loc main_arg15) :=
  ((StableHlo.after_below 36 hostOps2 (W4 m ρ c) from2 main_arg15 (by decide)).trans ((W4_of_ne m ρ c main_arg15 (by decide)).trans ((StableHlo.after_below 26 hostOps1 (W2 m ρ c) from1 main_arg15 (by decide)).trans ((W2_of_ne m ρ c main_arg15 (by decide)).trans ((StableHlo.after_below 22 hostOps0 (W0 m ρ c) from0 main_arg15 (by decide)).trans (rfl : W0 m ρ c (Proc.devRef .tc main_arg15) = m ((c : Thread nD τ).loc main_arg15)))))))

theorem keep5_arg16 (c : Dev nD) : W5 m ρ c (Proc.devRef .tc main_arg16) = m ((c : Thread nD τ).loc main_arg16) :=
  ((StableHlo.after_below 36 hostOps2 (W4 m ρ c) from2 main_arg16 (by decide)).trans ((W4_of_ne m ρ c main_arg16 (by decide)).trans ((StableHlo.after_below 26 hostOps1 (W2 m ρ c) from1 main_arg16 (by decide)).trans ((W2_of_ne m ρ c main_arg16 (by decide)).trans ((StableHlo.after_below 22 hostOps0 (W0 m ρ c) from0 main_arg16 (by decide)).trans (rfl : W0 m ρ c (Proc.devRef .tc main_arg16) = m ((c : Thread nD τ).loc main_arg16)))))))

theorem keep5_arg18 (c : Dev nD) : W5 m ρ c (Proc.devRef .tc main_arg18) = m ((c : Thread nD τ).loc main_arg18) :=
  ((StableHlo.after_below 36 hostOps2 (W4 m ρ c) from2 main_arg18 (by decide)).trans ((W4_of_ne m ρ c main_arg18 (by decide)).trans ((StableHlo.after_below 26 hostOps1 (W2 m ρ c) from1 main_arg18 (by decide)).trans ((W2_of_ne m ρ c main_arg18 (by decide)).trans ((StableHlo.after_below 22 hostOps0 (W0 m ρ c) from0 main_arg18 (by decide)).trans (rfl : W0 m ρ c (Proc.devRef .tc main_arg18) = m ((c : Thread nD τ).loc main_arg18)))))))

theorem keep6_arg20 (c : Dev nD) : W6 m ρ c (Proc.devRef .tc main_arg20) = m ((c : Thread nD τ).loc main_arg20) :=
  ((W6_of_ne m ρ c main_arg20 (by decide)).trans ((StableHlo.after_below 36 hostOps2 (W4 m ρ c) from2 main_arg20 (by decide)).trans ((W4_of_ne m ρ c main_arg20 (by decide)).trans ((StableHlo.after_below 26 hostOps1 (W2 m ρ c) from1 main_arg20 (by decide)).trans ((W2_of_ne m ρ c main_arg20 (by decide)).trans ((StableHlo.after_below 22 hostOps0 (W0 m ρ c) from0 main_arg20 (by decide)).trans (rfl : W0 m ρ c (Proc.devRef .tc main_arg20) = m ((c : Thread nD τ).loc main_arg20))))))))

theorem keep6_arg21 (c : Dev nD) : W6 m ρ c (Proc.devRef .tc main_arg21) = m ((c : Thread nD τ).loc main_arg21) :=
  ((W6_of_ne m ρ c main_arg21 (by decide)).trans ((StableHlo.after_below 36 hostOps2 (W4 m ρ c) from2 main_arg21 (by decide)).trans ((W4_of_ne m ρ c main_arg21 (by decide)).trans ((StableHlo.after_below 26 hostOps1 (W2 m ρ c) from1 main_arg21 (by decide)).trans ((W2_of_ne m ρ c main_arg21 (by decide)).trans ((StableHlo.after_below 22 hostOps0 (W0 m ρ c) from0 main_arg21 (by decide)).trans (rfl : W0 m ρ c (Proc.devRef .tc main_arg21) = m ((c : Thread nD τ).loc main_arg21))))))))

/-- x_ji's array is not touched between the first region and the third. -/
theorem keep5_v2_0 (c : Dev nD) : W5 m ρ c (Proc.devRef .tc main_v2_0) = W2 m ρ c (Proc.devRef .tc main_v2_0) :=
  ((StableHlo.after_below 36 hostOps2 (W4 m ρ c) from2 main_v2_0 (by decide)).trans ((W4_of_ne m ρ c main_v2_0 (by decide)).trans (StableHlo.after_below 26 hostOps1 (W2 m ρ c) from1 main_v2_0 (by decide))))

/-! ## The bias rows: a reshape of a [128] vector to [1, 128] reads the vector -/

theorem bias_v0 (c : Dev nD) (q : Fin 128) : W1 m ρ c (Proc.devRef .tc main_v0) (ix2 0 q) = m ((c : Thread nD τ).loc main_arg13) (ix1 q) := by
  have e : W1 m ρ c (Proc.devRef .tc main_v0) = shapeCast S1x128 (W0 m ρ c (Proc.devRef .tc main_arg13)) shapeCasts_S128_S1x128 := by
    show StableHlo.after hostOps0 (W0 m ρ c) (Proc.devRef .tc main_v0) = _
    after_results
    rfl
  rw [e]
  exact shapeCast_a_1a_apply _ _ 0 q

theorem bias_v1 (c : Dev nD) (q : Fin 128) : W1 m ρ c (Proc.devRef .tc main_v1) (ix2 0 q) = m ((c : Thread nD τ).loc main_arg11) (ix1 q) := by
  have e : W1 m ρ c (Proc.devRef .tc main_v1) = shapeCast S1x128 (W0 m ρ c (Proc.devRef .tc main_arg11)) shapeCasts_S128_S1x128 := by
    show StableHlo.after hostOps0 (W0 m ρ c) (Proc.devRef .tc main_v1) = _
    after_results
    rfl
  rw [e]
  exact shapeCast_a_1a_apply _ _ 0 q

theorem bias_v14 (c : Dev nD) (q : Fin 128) : W5 m ρ c (Proc.devRef .tc main_v14) (ix2 0 q) = m ((c : Thread nD τ).loc main_arg17) (ix1 q) := by
  have e : W5 m ρ c (Proc.devRef .tc main_v14) = shapeCast S1x128 (W4 m ρ c (Proc.devRef .tc main_arg17)) shapeCasts_S128_S1x128 := by
    show StableHlo.after hostOps2 (W4 m ρ c) (Proc.devRef .tc main_v14) = _
    after_results
    rfl
  rw [e, keep4_arg17 m ρ c]
  exact shapeCast_a_1a_apply _ _ 0 q

theorem bias_v15 (c : Dev nD) (q : Fin 128) : W5 m ρ c (Proc.devRef .tc main_v15) (ix2 0 q) = m ((c : Thread nD τ).loc main_arg19) (ix1 q) := by
  have e : W5 m ρ c (Proc.devRef .tc main_v15) = shapeCast S1x128 (W4 m ρ c (Proc.devRef .tc main_arg19)) shapeCasts_S128_S1x128 := by
    show StableHlo.after hostOps2 (W4 m ρ c) (Proc.devRef .tc main_v15) = _
    after_results
    rfl
  rw [e, keep4_arg19 m ρ c]
  exact shapeCast_a_1a_apply _ _ 0 q

/-! ## The seven stages -/

/-- x_ji: the first region's first output is the reference's stage. -/
theorem stage_xji (c : Dev nD) : W2 m ρ c (Proc.devRef .tc main_v2_0) = Cert.ReferenceIdeal.Read.val_main_v4 (F := Ideal) (m ((c : Thread nD τ).loc main_arg0)) (m ((c : Thread nD τ).loc main_arg12)) (m ((c : Thread nD τ).loc main_arg13)) := by
  have e : W2 m ρ c (Proc.devRef .tc main_v2_0) = Arrays.G0_9 (W1 m ρ c (Proc.devRef .tc main_arg0)) (W1 m ρ c (Proc.devRef .tc main_arg12)) (W1 m ρ c (Proc.devRef .tc main_v0)) :=
    (W2_arr m ρ c 9).trans (Arrays.final0_9 (V1 m ρ) c)
  rw [keep1_arg0 m ρ c, keep1_arg12 m ρ c] at e
  rw [e]
  funext i
  obtain ⟨r, j, rfl⟩ : ∃ (r : Fin 200000) (j : Fin 128), i = ix2 r j := ⟨i 0, i 1, eq_ix2 i⟩
  rw [Cert.ReferenceIdeal.StageRows.v4_at]
  exact Rows.act_congr rfl rfl (funext fun q => bias_v0 m ρ c q) rfl

/-- The down-projected message source: the first region's second output is the reference's stage. -/
theorem stage_down (c : Dev nD) : W2 m ρ c (Proc.devRef .tc main_v2_1) = Cert.ReferenceIdeal.Read.val_main_v14 (F := Ideal) (m ((c : Thread nD τ).loc main_arg0)) (m ((c : Thread nD τ).loc main_arg2)) (m ((c : Thread nD τ).loc main_arg6)) (m ((c : Thread nD τ).loc main_arg7)) (m ((c : Thread nD τ).loc main_arg10)) (m ((c : Thread nD τ).loc main_arg11)) (m ((c : Thread nD τ).loc main_arg14)) := by
  have e : W2 m ρ c (Proc.devRef .tc main_v2_1) = Arrays.G0_10 (W1 m ρ c (Proc.devRef .tc main_arg0)) (W1 m ρ c (Proc.devRef .tc main_arg2)) (W1 m ρ c (Proc.devRef .tc main_arg10)) (W1 m ρ c (Proc.devRef .tc main_v1))
      (W1 m ρ c (Proc.devRef .tc main_arg6)) (W1 m ρ c (Proc.devRef .tc main_arg7)) (W1 m ρ c (Proc.devRef .tc main_arg14)) :=
    (W2_arr m ρ c 10).trans (Arrays.final0_10 (V1 m ρ) c)
  rw [keep1_arg0 m ρ c, keep1_arg2 m ρ c, keep1_arg10 m ρ c, keep1_arg6 m ρ c, keep1_arg7 m ρ c, keep1_arg14 m ρ c] at e
  rw [e]
  funext i
  obtain ⟨r, j, rfl⟩ : ∃ (r : Fin 200000) (j : Fin 64), i = ix2 r j := ⟨i 0, i 1, eq_ix2 i⟩
  rw [Cert.ReferenceIdeal.StageRows.v14_at]
  exact Rows.down_congr rfl rfl rfl (funext fun q => bias_v1 m ρ c q) rfl rfl rfl rfl

/-- The row gather: the same host operations (the wrap of a negative index, then the gather) of equal operands. -/
theorem stage_gather (c : Dev nD) : W3 m ρ c (Proc.devRef .tc main_v9) = Cert.ReferenceIdeal.Read.val_main_v23 (F := Ideal) (m ((c : Thread nD τ).loc main_arg0)) (m ((c : Thread nD τ).loc main_arg2)) (m ((c : Thread nD τ).loc main_arg4)) (m ((c : Thread nD τ).loc main_arg6)) (m ((c : Thread nD τ).loc main_arg7)) (m ((c : Thread nD τ).loc main_arg10)) (m ((c : Thread nD τ).loc main_arg11)) (m ((c : Thread nD τ).loc main_arg14)) := by
  show StableHlo.after hostOps1 (W2 m ρ c) (Proc.devRef .tc main_v9) = _
  after_results
  rw [stage_down m ρ c, keep2_arg4 m ρ c]
  rfl

/-- The messages: the second region's output is the reference's product with its factors exchanged. -/
theorem stage_msg (c : Dev nD) : W4 m ρ c (Proc.devRef .tc main_v10) = Cert.ReferenceIdeal.Read.val_main_v24 (F := Ideal) (m ((c : Thread nD τ).loc main_arg0)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg14)) := by
  have e : W4 m ρ c (Proc.devRef .tc main_v10) = Arrays.G1_4 (W3 m ρ c (Proc.devRef .tc main_arg3)) (W3 m ρ c (Proc.devRef .tc main_v9)) (W3 m ρ c (Proc.devRef .tc main_arg8)) (W3 m ρ c (Proc.devRef .tc main_arg9)) :=
    (W4_arr m ρ c 4).trans (Arrays.final1_4 (V3 m ρ) c)
  rw [keep3_arg3 m ρ c, stage_gather m ρ c, keep3_arg8 m ρ c, keep3_arg9 m ρ c] at e
  rw [e]
  funext i
  obtain ⟨r, j, rfl⟩ : ∃ (r : Fin 2000000) (j : Fin 64), i = ix2 r j := ⟨i 0, i 1, eq_ix2 i⟩
  rw [Cert.ReferenceIdeal.StageRows.v24_at]
  exact mul_comm _ _

/-- The scatter-add: the same host operation of equal operands. -/
theorem stage_agg (c : Dev nD) : W5 m ρ c (Proc.devRef .tc main_v13) = Cert.ReferenceIdeal.Read.val_main_v27 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg14)) := by
  show StableHlo.after hostOps2 (W4 m ρ c) (Proc.devRef .tc main_v13) = _
  after_results
  rw [stage_msg m ρ c, keep4_arg5 m ρ c]
  rfl

/-- The output before normalisation: the third region's output is the reference's stage. -/
theorem stage_out (c : Dev nD) : W6 m ρ c (Proc.devRef .tc main_v16) = Cert.ReferenceIdeal.Read.val_main_v41 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  have e : W6 m ρ c (Proc.devRef .tc main_v16) = Arrays.G2_8 (W5 m ρ c (Proc.devRef .tc main_v13)) (W5 m ρ c (Proc.devRef .tc main_v2_0)) (W5 m ρ c (Proc.devRef .tc main_arg0)) (W5 m ρ c (Proc.devRef .tc main_arg15))
      (W5 m ρ c (Proc.devRef .tc main_arg16)) (W5 m ρ c (Proc.devRef .tc main_v14)) (W5 m ρ c (Proc.devRef .tc main_arg18)) (W5 m ρ c (Proc.devRef .tc main_v15)) :=
    (W6_arr m ρ c 8).trans (Arrays.final2_8 (V5 m ρ) c)
  rw [stage_agg m ρ c, keep5_v2_0 m ρ c, stage_xji m ρ c, keep5_arg0 m ρ c, keep5_arg15 m ρ c, keep5_arg16 m ρ c, keep5_arg18 m ρ c] at e
  rw [e]
  funext i
  obtain ⟨r, j, rfl⟩ : ∃ (r : Fin 200000) (j : Fin 128), i = ix2 r j := ⟨i 0, i 1, eq_ix2 i⟩
  rw [Cert.ReferenceIdeal.StageRows.v41_at]
  exact Rows.outRow_congr rfl rfl rfl rfl rfl (funext fun q => bias_v14 m ρ c q) rfl (funext fun q => bias_v15 m ρ c q) rfl

/-- The result: the normalisation is the same host operations of equal operands. -/
theorem result_eq (c : Dev nD) : W7 m ρ c (Proc.devRef .tc main_v41) = Cert.ReferenceIdeal.Read.val_main_v66 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  show StableHlo.after hostOps3 (W6 m ρ c) (Proc.devRef .tc main_v41) = _
  after_results_simp
  rw [stage_out m ρ c, keep6_arg20 m ρ c, keep6_arg21 m ρ c]
  rfl

end Cert.KernelIdeal.Bridge

end
-- ==== Proof.lean ====
/-
  The interaction block of a directional message-passing network: three Pallas regions (the edge projections, the
  messages, the output projections) around a row gather and a scatter-add, then batch normalisation, against the same
  block written in plain jnp.

  At the exact instance both programs compute one function of the arguments. A change of float format is the identity,
  a matrix-unit product into a zero accumulator and a host dot product are the same finite sum, the kernel's logistic
  function and the reference's quotient 1 / (1 + e^(-z)) are the same function by definition, and the only reordering —
  the message as (spherical embedding) · (gathered source) against (gathered source) · (spherical embedding) — is
  commutativity of multiplication on the extended reals. The gather, the scatter-add and the normalisation are the same
  host operations in both programs, so they need only equal operands. Nothing uses finiteness of the inputs.

  The kernel's value is read off its run: each region's output array is one whole-array row function of the arrays the
  region finds (the blocks written back cover the array), and the buffers between the regions are the host operations'
  results. The idealization pass rewrote nothing, so that conjunct is trivial.
-/
import proofs.«101107_j5952824672720_1_alg».proof.Defs
import proofs.«101107_j5952824672720_1_alg».proof.Proof.Gen.Kernel
import proofs.«101107_j5952824672720_1_alg».proof.Proof.Gen.Kernel.Skeleton
import proofs.«101107_j5952824672720_1_alg».proof.Proof.Gen.Kernel.Launch
import proofs.«101107_j5952824672720_1_alg».proof.Proof.Gen.Kernel.Points
import proofs.«101107_j5952824672720_1_alg».proof.Proof.Gen.Kernel.Frame
import proofs.«101107_j5952824672720_1_alg».proof.Proof.Gen.KernelIdeal
import proofs.«101107_j5952824672720_1_alg».proof.Proof.Gen.KernelIdeal.Skeleton
import proofs.«101107_j5952824672720_1_alg».proof.Proof.Gen.KernelIdeal.Launch
import proofs.«101107_j5952824672720_1_alg».proof.Proof.Gen.KernelIdeal.Points
import proofs.«101107_j5952824672720_1_alg».proof.Proof.Gen.KernelIdeal.Frame
import proofs.«101107_j5952824672720_1_alg».proof.Proof.Gen.ReferenceIdeal
import proofs.«101107_j5952824672720_1_alg».proof.Proof.Gen.ReferenceIdeal.Run
import proofs.«101107_j5952824672720_1_alg».proof.Proof.Gen.ReferenceIdeal.Read
import proofs.«101107_j5952824672720_1_alg».proof.Proof.Gen.Pre_finite_inputs
import proofs.«101107_j5952824672720_1_alg».proof.Proof.KRun
import proofs.«101107_j5952824672720_1_alg».proof.Proof.Bridge
import Idealize.ShloMosaic.Adequacy
import Idealize.ShloMosaic.Init

set_option maxRecDepth 65536

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

-- twenty-three buffer readings and the rewrites by the arguments' agreement in one declaration
set_option maxHeartbeats 4000000 in
/-- Both programs end with the reference's last stage of the kernel's arguments: the kernel by its run and the seven
    stage equalities, the reference by its run from arguments that agree. -/
theorem algebraic : Cert.algebraic_KernelIdeal_ReferenceIdeal := by
  intro m ρ m' ρ' _ hagree
  refine ⟨fun c => Cert.ReferenceIdeal.Read.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)), ?_, ?_⟩
  · exact (θ_run Cert.KernelIdeal.defs _ _).mono (fun r h c =>
      ⟨(h c _ (Cert.KernelIdeal.Gen.mem_uc Cert.KernelIdeal.main_v41 (by decide))).trans (Cert.KernelIdeal.Bridge.result_eq m ρ c),
       (h c _ (Cert.KernelIdeal.Gen.mem_uc Cert.KernelIdeal.main_arg0 (by decide))).trans (Cert.KernelIdeal.Gen.W7_main_arg0 m ρ c),
       (h c _ (Cert.KernelIdeal.Gen.mem_uc Cert.KernelIdeal.main_arg1 (by decide))).trans (Cert.KernelIdeal.Gen.W7_main_arg1 m ρ c),
       (h c _ (Cert.KernelIdeal.Gen.mem_uc Cert.KernelIdeal.main_arg2 (by decide))).trans (Cert.KernelIdeal.Gen.W7_main_arg2 m ρ c),
       (h c _ (Cert.KernelIdeal.Gen.mem_uc Cert.KernelIdeal.main_arg3 (by decide))).trans (Cert.KernelIdeal.Gen.W7_main_arg3 m ρ c),
       (h c _ (Cert.KernelIdeal.Gen.mem_uc Cert.KernelIdeal.main_arg4 (by decide))).trans (Cert.KernelIdeal.Gen.W7_main_arg4 m ρ c),
       (h c _ (Cert.KernelIdeal.Gen.mem_uc Cert.KernelIdeal.main_arg5 (by decide))).trans (Cert.KernelIdeal.Gen.W7_main_arg5 m ρ c),
       (h c _ (Cert.KernelIdeal.Gen.mem_uc Cert.KernelIdeal.main_arg6 (by decide))).trans (Cert.KernelIdeal.Gen.W7_main_arg6 m ρ c),
       (h c _ (Cert.KernelIdeal.Gen.mem_uc Cert.KernelIdeal.main_arg7 (by decide))).trans (Cert.KernelIdeal.Gen.W7_main_arg7 m ρ c),
       (h c _ (Cert.KernelIdeal.Gen.mem_uc Cert.KernelIdeal.main_arg8 (by decide))).trans (Cert.KernelIdeal.Gen.W7_main_arg8 m ρ c),
       (h c _ (Cert.KernelIdeal.Gen.mem_uc Cert.KernelIdeal.main_arg9 (by decide))).trans (Cert.KernelIdeal.Gen.W7_main_arg9 m ρ c),
       (h c _ (Cert.KernelIdeal.Gen.mem_uc Cert.KernelIdeal.main_arg10 (by decide))).trans (Cert.KernelIdeal.Gen.W7_main_arg10 m ρ c),
       (h c _ (Cert.KernelIdeal.Gen.mem_uc Cert.KernelIdeal.main_arg11 (by decide))).trans (Cert.KernelIdeal.Gen.W7_main_arg11 m ρ c),
       (h c _ (Cert.KernelIdeal.Gen.mem_uc Cert.KernelIdeal.main_arg12 (by decide))).trans (Cert.KernelIdeal.Gen.W7_main_arg12 m ρ c),
       (h c _ (Cert.KernelIdeal.Gen.mem_uc Cert.KernelIdeal.main_arg13 (by decide))).trans (Cert.KernelIdeal.Gen.W7_main_arg13 m ρ c),
       (h c _ (Cert.KernelIdeal.Gen.mem_uc Cert.KernelIdeal.main_arg14 (by decide))).trans (Cert.KernelIdeal.Gen.W7_main_arg14 m ρ c),
       (h c _ (Cert.KernelIdeal.Gen.mem_uc Cert.KernelIdeal.main_arg15 (by decide))).trans (Cert.KernelIdeal.Gen.W7_main_arg15 m ρ c),
       (h c _ (Cert.KernelIdeal.Gen.mem_uc Cert.KernelIdeal.main_arg16 (by decide))).trans (Cert.KernelIdeal.Gen.W7_main_arg16 m ρ c),
       (h c _ (Cert.KernelIdeal.Gen.mem_uc Cert.KernelIdeal.main_arg17 (by decide))).trans (Cert.KernelIdeal.Gen.W7_main_arg17 m ρ c),
       (h c _ (Cert.KernelIdeal.Gen.mem_uc Cert.KernelIdeal.main_arg18 (by decide))).trans (Cert.KernelIdeal.Gen.W7_main_arg18 m ρ c),
       (h c _ (Cert.KernelIdeal.Gen.mem_uc Cert.KernelIdeal.main_arg19 (by decide))).trans (Cert.KernelIdeal.Gen.W7_main_arg19 m ρ c),
       (h c _ (Cert.KernelIdeal.Gen.mem_uc Cert.KernelIdeal.main_arg20 (by decide))).trans (Cert.KernelIdeal.Gen.W7_main_arg20 m ρ c),
       (h c _ (Cert.KernelIdeal.Gen.mem_uc Cert.KernelIdeal.main_arg21 (by decide))).trans (Cert.KernelIdeal.Gen.W7_main_arg21 m ρ c)⟩)
      (Cert.KernelIdeal.Whole.run_all m ρ)
  · refine (θ_run Cert.ReferenceIdeal.defs _ _).mono (fun r h c => ⟨?_, (h c).2⟩) (Cert.ReferenceIdeal.Value.run (F := Ideal) m' ρ')
    obtain ⟨h0, h1, h2, h3, h4, h5, h6, h7, h8, h9, h10, h11, h12, h13, h14, h15, h16, h17, h18, h19, h20, h21⟩ := hagree c
    rw [(h c).1, Cert.ReferenceIdeal.Read.val_main_v66_eq, h0, h2, h3, h4, h5, h6, h7, h8, h9, h10, h11, h12, h13, h14, h15, h16, h17, h18, h19, h20, h21]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
